-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S32x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S32x4096 .f32 := Host.absf main_arg3
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S1024x1024 : Shape := ⟨2, ![1024, 1024]⟩
abbrev S8x1024 : Shape := ⟨2, ![8, 1024]⟩
abbrev S8x128x1024 : Shape := ⟨3, ![8, 128, 1024]⟩
abbrev S8x1x1024 : Shape := ⟨3, ![8, 1, 1024]⟩
abbrev S8192x4096 : Shape := ⟨2, ![8192, 4096]⟩
abbrev S1x4096 : Shape := ⟨2, ![1, 4096]⟩
abbrev S1x1024 : Shape := ⟨2, ![1, 1024]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S32x4096, .f32⟩
  | .hbm, ⟨4, _⟩ => ⟨S4096x4096, .bf16⟩
  | .hbm, ⟨5, _⟩ => ⟨S8192x4096, .f32⟩
  | .hbm, ⟨6, _⟩ => ⟨S8192x4096, .bf16⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  shapeCasts_S1024x1024_S8x128x1024 : S1024x1024.ShapeCasts S8x128x1024
  inb_S8x1024_S8x1024_0_0 : ∀ a, (![0, 0] : Fin 2 → Nat) a + S8x1024.size a ≤ S8x1024.size a
  h_S8x1024 : 0 < S8x1024.numel
  shapeCasts_S8x1024_S8x1x1024 : S8x1024.ShapeCasts S8x1x1024
  broadcasts_S8x1x1024_S8x128x1024 : S8x1x1024.Broadcasts S8x128x1024
  shapeCasts_S8x128x1024_S1024x1024 : S8x128x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S4x2048x4096_S8192x4096 : S4x2048x4096.ShapeCasts S8192x4096
  shapeCasts_S4096_S1x4096 : S4096.ShapeCasts S1x4096
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S32x4096.size a
  hwx0_1 : ∀ i : grid0.Coords, EltTy.bits .f32 = 32 ∨ (Rect.block (s := S32x4096) S8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S32x128x4096 : Shape := ⟨3, ![32, 128, 4096]⟩
abbrev S32x1x4096 : Shape := ⟨3, ![32, 1, 4096]⟩
abbrev S_ : Shape := ⟨0, ![]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S32x4096, .f32⟩
  | .hbm, ⟨4, _⟩ => ⟨S4096x4096, .f32⟩
  | .hbm, ⟨5, _⟩ => ⟨S32x128x4096, .f32⟩
  | .hbm, ⟨6, _⟩ => ⟨S32x1x4096, .f32⟩
  | .hbm, ⟨7, _⟩ => ⟨S_, .f32⟩
  | .hbm, ⟨8, _⟩ => ⟨S32x1x4096, .f32⟩
  | .hbm, ⟨9, _⟩ => ⟨S32x1x4096, .f32⟩
  | .hbm, ⟨10, _⟩ => ⟨S32x128x4096, .f32⟩
  | .hbm, ⟨11, _⟩ => ⟨S32x128x4096, .f32⟩
  | .hbm, ⟨12, _⟩ => ⟨S32x128x4096, .f32⟩
  | .hbm, ⟨13, _⟩ => ⟨S32x128x4096, .f32⟩
  | .hbm, ⟨14, _⟩ => ⟨S32x128x4096, .f32⟩
  | .hbm, ⟨15, _⟩ => ⟨S4096x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S4096x4096_S4096x4096_1_0 : S4096x4096.Transposes [1, 0] S4096x4096
  shapeCasts_S4096x4096_S32x128x4096 : S4096x4096.ShapeCasts S32x128x4096
  bcast_S32x4096_S32x1x4096_0_2 : S32x4096.BroadcastsInDim S32x1x4096 (![0, 2] : Fin 2 → Fin S32x1x4096.rank)
  bcast_S_S32x1x4096 : S_.BroadcastsInDim S32x1x4096 (![] : Fin 0 → Fin S32x1x4096.rank)
  bcast_S32x1x4096_S32x128x4096_0_1_2 : S32x1x4096.BroadcastsInDim S32x128x4096 (![0, 1, 2] : Fin 3 → Fin S32x128x4096.rank)
  shapeCasts_S32x128x4096_S4096x4096 : S32x128x4096.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.Blocks.lean ====
/-
  A window's block at a grid point, read off its array as the region finds it: the block of window `w` at point `t`
  is the restriction of the array (the contents `V` holds for the window's buffer when the region is entered) to the
  rectangle the window's index map assigns to `t`. One definition per pallas_call; everything said about what a
  kernel body is handed is said through these.
-/
import proofs.«162470_j34677565948161_2_alg».proof.Proof.Gen.KernelIdeal.Launch
import proofs.«162470_j34677565948161_2_alg».proof.Proof.Gen.KernelIdeal.Points

noncomputable section

namespace Cert.KernelIdeal.Hand

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- The dequantisation call: window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix-product call: window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.KernelIdeal.Hand

end
-- ==== Proof.DequantBody.lean ====
/-
  The dequantisation call, body by body.

  At every grid point the kernel body reads its weight block and its block of scales, and overwrites the whole
  output block with one value computed from the two: the transposed weight block divided, group of 128 rows by group,
  by the scales plus epsilon, rounded to the nearest integer and multiplied by the same step again. This file says what
  the body leaves in each window's buffer in terms of the blocks it was handed, and discharges the obligation the
  pipeline asks of a body, at every point, for any scalar model.
-/
import proofs.«162470_j34677565948161_2_alg».proof.Proof.Gen.KernelIdeal.Launch
import proofs.«162470_j34677565948161_2_alg».proof.Proof.Gen.KernelIdeal.Skeleton
import proofs.«162470_j34677565948161_2_alg».proof.Proof.Gen.KernelIdeal.Points
import proofs.«162470_j34677565948161_2_alg».proof.Proof.Blocks
import Idealize.ShloMosaic.Lib.Pipeline.FrameBody
import Idealize.ShloMosaic.Lib.Ring
import Idealize.ShloMosaic.Lib.Tactic

-- membership of an index in a rectangle with a thousand coordinates per axis is looked at one coordinate at a time
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the dequantisation call is entered
variable (V : (c : Dev nD) → (b : Ref sig .tc) → Buf (Elt F) ((c : Thread nD τ).loc b))

/-! ## The input windows hold their blocks -/

/-- The weight window's current buffer holds the weight block of the point, whether it was copied in at this very
    point or earlier: for any proof data whose array is the entry contents and whose body leaves the block alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the window of scales. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole block -/

/-- The whole 1024 × 1024 block (the weight block read, the output block written). -/
abbrev rW0 : Rect S1024x1024 := Rect.unit (s := S1024x1024) ![0, 0] S1024x1024.size inb_S1024x1024_S1024x1024_0_0
/-- The whole 8 × 1024 block of scales. -/
abbrev rS0 : Rect S8x1024 := Rect.unit (s := S8x1024) ![0, 0] S8x1024.size inb_S8x1024_S8x1024_0_0

/-! ## What the body leaves in the output window's buffer -/

/-- The output block after the body, from the two input blocks: the one store, of the dequantised block computed from
    the weight block and the block of scales as read. -/
def out0_2 (x0 : Vec F S1024x1024 .f32) (x1 : Vec F S8x1024 .f32) : Vec F S1024x1024 .bf16 :=
  View.canon [⟨rW0, k0_pay1 (View.ld x0 rW0) (View.ld x1 rS0)⟩]

/-- The one store is of the whole block, so every index of the block is written. -/
theorem cover0_2 (p0 : Vec F S1024x1024 .bf16) (y : S1024x1024.Idx) :
    ∃ pc ∈ ([⟨rW0, p0⟩] : List (View.Piece (Elt F) S1024x1024 .bf16)), y ∈ pc.1.set :=
  View.cover_of_tiled [⟨rW0, p0⟩] S1024x1024.size (by rfl) y

/-! ## The body's triple -/

set_option maxHeartbeats 1000000 in
/-- The kernel body on whole buffers — the weight block `x0`, the scales `x1`, the output at anything — runs to a state
    where the inputs are as they were and the output holds `out0_2 x0 x1`: two reads, a read of the output whose value
    is not used, and one store of the whole block. -/
theorem sound_kernel0 (c : Dev nD) (E : Set ℕ) (i : grid0.Coords) (arg2 : Memref sig .tc .vmem S1024x1024 .f32) (harg2 : arg2.IsWhole) (arg3 : Memref sig .tc .vmem S8x1024 .f32) (harg3 : arg3.IsWhole) (arg4 : Memref sig .tc .vmem S1024x1024 .bf16) (harg4 : arg4.IsWhole)
    (x0 : Vec F S1024x1024 .f32) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__dequant_kernel i arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the dequantisation call on core `c`: the arrays as the call finds them; after the body at point
    `t` each input's buffer still at its block and the output's at `out0_2` of the two input blocks; the invariant is
    the rest of the core's state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.MatmulBody.lean ====
/-
  The matrix-product call: what its body does at one grid point, and the invariant that carries the accumulator
  from point to point.

  The call computes `out[i, j] = (∑ k, x[i, k] · w[k, j]) + bias[j]` block by block: its grid is 8 × 4 × 4 over the
  block coordinates `(i, j, k)`, the contraction coordinate `k` innermost, so four consecutive points share one
  output block `(i, j)`. At `k = 0` the body zeroes a scratch accumulator; at every point it adds to the
  accumulator the product of the point's block of `x` and block of `w`; at `k = 3` it stores the accumulator plus
  the bias row, broadcast down the rows, into the output block. Elsewhere the output block is not touched and not
  written back.

  Stated here, for any float semantics `F` and any contents `V` of the arrays when the call is entered:
  the three steps of the body as triples with explicit results (`runA`, `runB`, `runC`); the accumulator after
  each point by recursion on the point (`accAt1`: it restarts from zero at the points ≡ 0 mod 4 and otherwise
  continues from the point before); the proof data of the call (`dat1`: an output block, where it is stored, is the
  accumulator after that point plus the bias); and the body obligation with the entry and exit entailments of the
  invariant.
-/
import proofs.«162470_j34677565948161_2_alg».proof.Proof.Blocks
import proofs.«162470_j34677565948161_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a load or store of a whole buffer: all zero. -/
theorem hz : (![0, 0] : Fin 2 → Nat) = fun _ => 0 := funext fun a => by fin_cases a <;> rfl

/-- The condition under which the body zeroes the accumulator, from the grid coordinates: the innermost
    coordinate is 0. -/
abbrev cond1_0 (i : grid1.Coords) : Prop := (Scalar.cmpi .ne (Scalar.extui (Scalar.cmpi .eq (BitVec.ofNat 32 (i 2).val) 0#32)) 0#32) = 1#1
/-- The condition under which the body stores the output block: the innermost coordinate is 3. -/
abbrev cond1_1 (i : grid1.Coords) : Prop := k1_cond2 i = 1#1

/-! ## Whole-buffer loads and stores

Every load and store of the body goes through the rectangle of the buffer's full sizes at offsets zero: a load
reads the contents, a last store leaves its payload, and a load after such a store reads that payload. -/

/-- A load of a whole 1024×1024 buffer owned at `X` reads `X`. -/
theorem load_sq {e : EltTy} (m : Memref sig .tc .vmem S1024x1024 e) (h : m.IsWhole) (X : Vec F S1024x1024 e) :
    View.readAt (Elt F) m.view (Rect.unit (s := S1024x1024) ![0, 0] S1024x1024.size inb_S1024x1024_S1024x1024_0_0).toLoadRect (h.unread X) = X := by
  rw [View.readAt_eq_ld, h.read_unread, View.ld_unit_zero (S := S1024x1024) hz]

/-- A load of a whole 1×1024 buffer owned at `X` reads `X`. -/
theorem load_row {e : EltTy} (m : Memref sig .tc .vmem S1x1024 e) (h : m.IsWhole) (X : Vec F S1x1024 e) :
    View.readAt (Elt F) m.view (Rect.unit (s := S1x1024) ![0, 0] S1x1024.size inb_S1x1024_S1x1024_0_0).toLoadRect (h.unread X) = X := by
  rw [View.readAt_eq_ld, h.read_unread, View.ld_unit_zero (S := S1x1024) hz]

/-- After stores the last of which fills the whole buffer with `p`, the buffer reads `p`. -/
theorem read_last_sq {e : EltTy} (v : View sig .tc .vmem S1024x1024 e) (f : v.ty.Contents (Elt F)) (p : Vec F S1024x1024 e)
    (L : List (View.Piece (Elt F) S1024x1024 e)) :
    v.read (Elt F) (v.writes (Elt F) f (⟨Rect.unit (s := S1024x1024) ![0, 0] S1024x1024.size inb_S1024x1024_S1024x1024_0_0, p⟩ :: L)) = p := by
  rw [View.read_writes_eq_canon _ _ _ (fun y => ⟨_, List.mem_cons_self .., View.mem_set_unit_zero hz inb_S1024x1024_S1024x1024_0_0 y⟩),
    View.canon_cons_unit_zero (S := S1024x1024) hz]

/-- A load of the whole buffer after one store that filled it with `p` reads `p`. -/
theorem readCov_sq {e : EltTy} (v : View sig .tc .vmem S1024x1024 e) (p : Vec F S1024x1024 e) :
    v.readCov [(⟨Rect.unit (s := S1024x1024) ![0, 0] S1024x1024.size inb_S1024x1024_S1024x1024_0_0, p⟩ : View.Piece (Elt F) S1024x1024 e)]
      (Rect.unit (s := S1024x1024) ![0, 0] S1024x1024.size inb_S1024x1024_S1024x1024_0_0).toLoadRect = p :=
  View.readCov_unit_zero (S := S1024x1024) v hz _ p

/-! ## The three steps of the body

On whole staging buffers: the inputs at their contents `x`, `w`, `b`; the output block and the accumulator as each
step needs them. Each step runs to a continuation that holds the inputs as they were and the output block and the
accumulator at the stated results. -/

set_option maxHeartbeats 1000000 in
/-- THE FIRST STEP OF A RUN OF FOUR (innermost coordinate 0): whatever the accumulator held, the body zeroes it
    and leaves `0 + x·w` in it; the inputs and the output block are left as they were. -/
theorem runA (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : cond1_0 i) (hc1 : ¬cond1_1 i)
    (x w : Vec F S1024x1024 .bf16) (b : Vec F S1x1024 .f32) (xo : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare xo ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare (xo) ∗ owns (c : Thread nD τ) arg7 fullShare (k1_pay2 x w (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  refine (read_last_sq _ _ _ _).trans ?_
  sl_unfold_words
  rw [readCov_sq, load_sq, load_sq]

set_option maxHeartbeats 1000000 in
/-- A MIDDLE STEP (innermost coordinate 1 or 2): with the accumulator holding `s`, the body leaves `s + x·w` in
    it; the inputs and the output block are left as they were. -/
theorem runB (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : ¬cond1_0 i) (hc1 : ¬cond1_1 i)
    (x w : Vec F S1024x1024 .bf16) (b : Vec F S1x1024 .f32) (xo s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare xo ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (xo) ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  refine (read_last_sq _ _ _ _).trans ?_
  sl_unfold_words
  rw [load_sq, load_sq, load_sq]

set_option maxHeartbeats 1000000 in
/-- THE LAST STEP OF A RUN OF FOUR (innermost coordinate 3): with the accumulator holding `s`, the body leaves
    `s + x·w` in it and stores that plus the broadcast bias into the output block, whatever the block held; the
    inputs are left as they were. -/
theorem runC (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : ¬cond1_0 i) (hc1 : cond1_1 i)
    (x w : Vec F S1024x1024 .bf16) (b : Vec F S1x1024 .f32) (s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w s) b) ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (read_last_sq _ _ _ _).trans ?_
    sl_unfold_words
    rw [readCov_sq, load_sq, load_sq, load_sq, load_row]
  iexists _; isplitr
  swap; · iexact HS
  ipureintro
  sl_unfold_words
  refine (read_last_sq _ _ _ _).trans ?_
  sl_unfold_words
  rw [load_sq, load_sq, load_sq]

/-! ## The schedule in closed form

The grid is 8 × 4 × 4 with the contraction coordinate innermost, so point `t` has contraction coordinate `t % 4`:
the accumulator is zeroed where that is 0 and the output block stored where it is 3. -/

/-- The accumulator is zeroed exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The output block is stored exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The three inputs are read at every point. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- Away from the points ≡ 3 (mod 4) the body stores nothing into the output block, -/
theorem idleAt1_3 : ∀ t : Fin cfg1.N, ¬t.val % 4 = 3 → cfg1.idle 3 (grid1.coords t) = true :=
  (by decide +kernel : ∀ t : Fin grid1.N, ¬t.val % 4 = 3 → idle1 3 (grid1.coords t) = true)
/-- and the block is not written back there; -/
theorem noFlush1_3 (t : Fin cfg1.N) (h : ¬t.val % 4 = 3) : (cfg1.win 3).flush t = false := by
  cases hf : (cfg1.win 3).flush t
  · rfl
  · exact absurd ((flush1_3 t).mp hf) h
/-- at those points it stores the whole block. -/
theorem liveAt1_3 : ∀ t : Fin cfg1.N, t.val % 4 = 3 → cfg1.idle 3 (grid1.coords t) = false :=
  (by decide +kernel : ∀ t : Fin grid1.N, t.val % 4 = 3 → idle1 3 (grid1.coords t) = false)

/-! ## The accumulator, point by point -/

variable (V : (c : Dev nD) → (b : Ref sig .tc) → Buf (Elt F) ((c : Thread nD τ).loc b))

/-- What the accumulator holds after point `n`: at the first point of a run of four the product of that point's
    blocks added to zero, afterwards the product of the point's blocks added to what the point before left. -/
def accAt1 (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

/-- At the first point of a run of four the sum starts from zero. -/
theorem accAt1_first (c : Dev nD) (t : Fin cfg1.N) (h : t.val % 4 = 0) :
    accAt1 V c t.val t.isLt = k1_pay2 (iblk1 V c 0 t) (iblk1 V c 1 t) (k1_pay1 (F := F)) := by
  obtain ⟨n, hn⟩ := t
  cases n with
  | zero => rfl
  | succ n => exact if_pos h

/-- At the other points it continues from what the point before left. -/
theorem accAt1_next (c : Dev nD) (t : Fin cfg1.N) (h : ¬t.val % 4 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points

Besides the windows' staging buffers the core holds, of its scoped memory, the accumulator, the six staging buffers
of the other call (untouched here: an opaque rest), and the generator register. -/

/-- The accumulator as a memref: the kernel's own whole scoped buffer. -/
abbrev scM1 : Memref sig .tc .vmem S1024x1024 .f32 := Memref.whole cc1_scratch0

/-- The staging buffers of the other call, each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- What the region is entered with gives the accumulator at some contents, the rest, and the register; -/
theorem PhiA1_fwd (c : Dev nD) :
    (Pipeline.ΦA spec1 c : sProp 𝕄)
      ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨H0, H1, H2, H3, H4, H5, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    iexact H5
  iexact Hg

/-- and those three give it back. -/
theorem PhiA1_bwd (c : Dev nD) :
    iprop((∃ d, owns (c : Thread nD τ) scM1 fullShare d) ∗ rest1 c ∗ (∃ r, prngReg c r))
      ⊢ (Pipeline.ΦA spec1 c : sProp 𝕄) := by
  unfold Pipeline.ΦA rest1; rw [scopedRest1_eq]; simp only [scM1, owns_whole]
  iintro ⟨HS, ⟨H0, H1, H2, H3, H4, H5⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    iexact HS
  iexact Hg

/-- So what the region is entered with IS those three. -/
theorem PhiA1_eq (c : Dev nD) :
    (Pipeline.ΦA spec1 c : sProp 𝕄)
      = iprop((∃ d, owns (c : Thread nD τ) scM1 fullShare d) ∗ rest1 c ∗ (∃ r, prngReg c r)) :=
  BI.equiv_iff.mp ⟨PhiA1_fwd c, PhiA1_bwd c⟩

/-- The invariant before position `n`: before the first point what the region is entered with; afterwards the
    accumulator at what the point before left in it, the rest, and the register at some state. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ rest1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (accAt1 V c n hn) ∗ rest1 c ∗ (∃ r, prngReg c r)) := rfl

theorem PhiS1_pos (c : Dev nD) (n : ℕ) (h : n ≤ cfg1.N) (hz : n ≠ 0) :
    PhiS1 V c n h = iprop(owns (c : Thread nD τ) scM1 fullShare (accAt1 V c (n - 1) (by omega)) ∗ rest1 c ∗ (∃ r, prngReg c r)) := by
  cases n with
  | zero => exact absurd rfl hz
  | succ n => rfl

/-! ## The proof data -/

/-- The proof data of the matrix-product call on core `c`: the arrays as the region finds them; after the body at
    point `t` each input's staging buffer at its block (the body stores into none), the output's at the accumulated
    sum plus the bias where the block is stored (elsewhere it is handed back as found, and the entry is a
    placeholder); the invariant above; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => if t.val % 4 = 3 then k1_pay3 (accAt1 V c t.val t.isLt) (iblk1 V c 2 t) else k1_pay1 (F := F)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- Where the output block is stored it is the accumulated sum plus the bias. -/
theorem after1_3 (c : Dev nD) (t : Fin cfg1.N) (h : t.val % 4 = 3) :
    (dat1 V c).after 3 t = k1_pay3 (accAt1 V c t.val t.isLt) (iblk1 V c 2 t) := by
  dsimp only [dat1]; exact if_pos h

/-- Each input's current staging buffer holds its block at every point, fetched there or not: where it is not
    fetched the block index has not moved since the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body at a generic point -/

/-- Each window's current staging memref at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- What the body is called with at point `t`: the invariant, what the core owes, and each window's current
    staging buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the residue of the point modulo 4 says which step
    of a run of four it is; the invariant hands the body the accumulator at what the point before left (at anything
    at the very first point, and at the first step of every run the body does not read it), and takes it back at this
    point's sum; the output block is stored at the last step of a run and handed back untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases h0 : t.val % 4 = 0
  · have h1 : ¬t.val % 4 = 3 := by omega
    rw [Dat.leavesExact_idle (dat1 V c) 3 t (idleAt1_3 t h1) (noFlush1_3 t h1)]
    rw [accAt1_first V c t h0]
    by_cases hz : t.val = 0
    · rw [PhiS1_castSucc V c t, PhiS1_zero V c _ _ hz, PhiA1_eq]
      iintro ⟨⟨HS, HR, Hg⟩, Ho, ⟨%d0, H0⟩, ⟨%d1, H1⟩, ⟨%d2, H2⟩, ⟨%d3, H3⟩⟩
      iapply (runA c (grid1.coords t) (ms1_0 t) (hs1_0 t) (ms1_1 t) (hs1_1 t) (ms1_2 t) (hs1_2 t) (ms1_3 t) (hs1_3 t) scM1 (Memref.isWhole_whole _)
        ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR, Hg⟩, Ho, ⟨%d0, H0⟩, ⟨%d1, H1⟩, ⟨%d2, H2⟩, ⟨%d3, H3⟩⟩
      iapply (runA c (grid1.coords t) (ms1_0 t) (hs1_0 t) (ms1_1 t) (hs1_1 t) (ms1_2 t) (hs1_2 t) (ms1_3 t) (hs1_3 t) scM1 (Memref.isWhole_whole _)
        ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt1_next V c t h0]
    rw [PhiS1_castSucc V c t, PhiS1_pos V c _ _ hz]
    by_cases h1 : t.val % 4 = 3
    · rw [show (dat1 V c).leavesExact 3 t = owns (c : Thread nD τ) (ms1_3 t) fullShare ((dat1 V c).after 3 t) from by
        unfold Dat.leavesExact; rw [liveAt1_3 t h1], after1_3 V c t h1, accAt1_next V c t h0]
      iintro ⟨⟨HS, HR, Hg⟩, Ho, ⟨%d0, H0⟩, ⟨%d1, H1⟩, ⟨%d2, H2⟩, ⟨%d3, H3⟩⟩
      iapply (runC c (grid1.coords t) (ms1_0 t) (hs1_0 t) (ms1_1 t) (hs1_1 t) (ms1_2 t) (hs1_2 t) (ms1_3 t) (hs1_3 t) scM1 (Memref.isWhole_whole _)
        (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨HS, HR, Hg⟩, Ho, ⟨%d0, H0⟩, ⟨%d1, H1⟩, ⟨%d2, H2⟩, ⟨%d3, H3⟩⟩
      iapply (runB c (grid1.coords t) (ms1_0 t) (hs1_0 t) (ms1_1 t) (hs1_1 t) (ms1_2 t) (hs1_2 t) (ms1_3 t) (hs1_3 t) scM1 (Memref.isWhole_whole _)
        (fun h => h0 ((hcond1_0 t).mp h)) (fun h => h1 ((hcond1_1 t).mp h)) (iblk1 V c 0 t) (iblk1 V c 1 t) (iblk1 V c 2 t) ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the matrix-product call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: what the accumulator holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS, HR, Hg⟩
  isplitl [HS]
  · iexists _; iexact HS
  isplitl [HR]; · iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 128 := N_1; omega)

end Cert.KernelIdeal.Hand

end
-- ==== Proof.Boundaries.lean ====
/-
  The contents of every buffer that outlives a launch, followed through the program one boundary at a time:
  `W0` at the start; `W1` after the dequantisation launch (its output array now holds what that launch's grid
  points wrote back, everything else as before); `W2` after the host lines that flatten the activations to rows,
  change their format and give the bias a unit axis; `W3` after the matrix-product launch; `W4` after the last
  reshape. No boundary writes an argument: an argument's buffer walks back from `W4` to the start unchanged.
-/
import proofs.«162470_j34677565948161_2_alg».proof.Proof.DequantBody
import proofs.«162470_j34677565948161_2_alg».proof.Proof.MatmulBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At the start. -/
abbrev W0 : Dev nD → Valuation τ sig (Elt F) := fun c b => (s₀ m ρ).mem ((c : Dev nD), b)
/-- The same, read at a buffer's name (what the dequantisation launch's windows are cut from). -/
abbrev Vin0 : (c : Dev nD) → (b : Ref sig .tc) → Buf (Elt F) ((c : Thread nD τ).loc b) := fun c b => W0 m ρ c b
/-- After the dequantisation launch: its arrays at what its write-backs leave, everything else as before. -/
def W1 (c : Dev nD) : Valuation τ sig (Elt F) :=
  Pipeline.withArrays spec0 c (W0 m ρ c) fun w => (dat0 (Vin0 m ρ) c).arrAt w cfg0.N
theorem W1_arr (c : Dev nD) (w : Fin cfg0.W) :
    W1 m ρ c (Proc.devRef .tc (Pipeline.arrRef spec0 w)) = (dat0 (Vin0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vout0 : (c : Dev nD) → (b : Ref sig .tc) → Buf (Elt F) ((c : Thread nD τ).loc b) := fun c b => W1 m ρ c b
theorem hF0 (c : Dev nD) (w : Fin cfg0.W) : (dat0 (Vin0 m ρ) c).arrAt w cfg0.N = Vout0 m ρ c (Pipeline.arrRef spec0 w) :=
  (W1_arr m ρ c w).symm
theorem hrest0 (c : Dev nD) : ∀ b, b ∉ Finset.univ.image (Pipeline.arrRef spec0) → Vout0 m ρ c b = Vin0 m ρ c b :=
  fun b hb => W1_of_ne m ρ c b fun w e => hb (Finset.mem_image.mpr ⟨w, Finset.mem_univ _, e⟩)

/-- After the host lines between the launches. -/
abbrev W2 : Dev nD → Valuation τ sig (Elt F) := fun c => StableHlo.after hostOps1 (W1 m ρ c)
/-- The same, read at a buffer's name (what the matrix-product launch's windows are cut from). -/
abbrev Vin1 : (c : Dev nD) → (b : Ref sig .tc) → Buf (Elt F) ((c : Thread nD τ).loc b) := fun c b => W2 m ρ c b
/-- After the matrix-product launch. -/
def W3 (c : Dev nD) : Valuation τ sig (Elt F) :=
  Pipeline.withArrays spec1 c (W2 m ρ c) fun w => (dat1 (Vin1 m ρ) c).arrAt w cfg1.N
theorem W3_arr (c : Dev nD) (w : Fin cfg1.W) :
    W3 m ρ c (Proc.devRef .tc (Pipeline.arrRef spec1 w)) = (dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vout1 : (c : Dev nD) → (b : Ref sig .tc) → Buf (Elt F) ((c : Thread nD τ).loc b) := fun c b => W3 m ρ c b
theorem hF1 (c : Dev nD) (w : Fin cfg1.W) : (dat1 (Vin1 m ρ) c).arrAt w cfg1.N = Vout1 m ρ c (Pipeline.arrRef spec1 w) :=
  (W3_arr m ρ c w).symm
theorem hrest1 (c : Dev nD) : ∀ b, b ∉ Finset.univ.image (Pipeline.arrRef spec1) → Vout1 m ρ c b = Vin1 m ρ c b :=
  fun b hb => W3_of_ne m ρ c b fun w e => hb (Finset.mem_image.mpr ⟨w, Finset.mem_univ _, e⟩)
/-- After the last reshape: the end. -/
abbrev W4 : Dev nD → Valuation τ sig (Elt F) := fun c => StableHlo.after hostOps2 (W3 m ρ c)

/-! ## No line and no launch writes an argument -/

theorem hostOps1_not_written (b : Ref sig .tc) (hb : b ∉ ([main_v1, main_v2, main_v3] : List (Ref sig .tc))) (X : Valuation τ sig (Elt F)) :
    StableHlo.after hostOps1 X (Proc.devRef .tc b) = X (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.mem_nil_iff, or_false, not_or] at hb
    exact ⟨StableHlo.devRef_ne_of_ne hb.1, StableHlo.devRef_ne_of_ne hb.2.1, StableHlo.devRef_ne_of_ne hb.2.2⟩))
theorem hostOps2_not_written (b : Ref sig .tc) (hb : b ≠ main_v5) (X : Valuation τ sig (Elt F)) :
    StableHlo.after hostOps2 X (Proc.devRef .tc b) = X (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-! ## The arguments end as they started -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_not_written main_arg0 (by decide) _
    _ = W2 m ρ c (Proc.devRef .tc main_arg0) := W3_of_ne m ρ c main_arg0 (by decide)
    _ = W1 m ρ c (Proc.devRef .tc main_arg0) := hostOps1_not_written main_arg0 (by decide) _
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps2_not_written main_arg1 (by decide) _
    _ = W2 m ρ c (Proc.devRef .tc main_arg1) := W3_of_ne m ρ c main_arg1 (by decide)
    _ = W1 m ρ c (Proc.devRef .tc main_arg1) := hostOps1_not_written main_arg1 (by decide) _
    _ = W0 m ρ c (Proc.devRef .tc main_arg1) := (W1_arr m ρ c 0).trans (((dat0 (Vin0 m ρ) c).arrAt_in 0 rfl _).trans (A_eq0 (Vin0 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := hostOps2_not_written main_arg2 (by decide) _
    _ = W2 m ρ c (Proc.devRef .tc main_arg2) := W3_of_ne m ρ c main_arg2 (by decide)
    _ = W1 m ρ c (Proc.devRef .tc main_arg2) := hostOps1_not_written main_arg2 (by decide) _
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := hostOps2_not_written main_arg3 (by decide) _
    _ = W2 m ρ c (Proc.devRef .tc main_arg3) := W3_of_ne m ρ c main_arg3 (by decide)
    _ = W1 m ρ c (Proc.devRef .tc main_arg3) := hostOps1_not_written main_arg3 (by decide) _
    _ = W0 m ρ c (Proc.devRef .tc main_arg3) := (W1_arr m ρ c 1).trans (((dat0 (Vin0 m ρ) c).arrAt_in 1 rfl _).trans (A_eq0 (Vin0 m ρ) c 1))
    _ = m ((c : Thread nD τ).loc main_arg3) := rfl

end Cert.KernelIdeal.Hand

end
-- ==== Proof.Run.lean ====
/-
  The whole run of the program: two kernel launches with host lines between and after them.

  Each launch is entered holding every buffer that outlives it at one boundary's contents and left holding it at the
  next boundary's; the dequantisation launch keeps only the class's untouched rest between its points, the
  matrix-product launch carries its accumulator. The run theorem reads every such buffer of the final state at the
  last boundary's contents; the frame claim (the four arguments end as they started) is read off it.
-/
import proofs.«162470_j34677565948161_2_alg».proof.Proof.Boundaries
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both launches, and what rides beside the buffers -/

/-- Neither launch reads a prefetched table. -/
abbrev adm : (p : Fin 2) → (pcfgs (F := F) p).Adm := fun p => (cfgs p).toPCfg_adm
/-- Each launch's proof data at the contents it is entered from. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A stretch of host lines from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`: every buffer at the end's contents, the generator register at some state. -/
abbrev Tₙ (c : Dev nD) : sProp 𝕄 := iprop(StableHlo.held (c : Thread nD τ) (Pipeline.ucRefs τ sig) (W4 m ρ c) ∗ ∃ r, prngReg c r)

/-! ## The launches -/

set_option backward.isDefEq.respectTransparency.types false in
/-- The dequantisation launch: entered from every buffer at `W0`, left at `W1`. Its three arrays are split out of the
    buffers and put back at what the write-backs leave; the generator register goes into the class's invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product launch: entered from every buffer at `W2`, left at `W3`. As above, except that its invariant
    carries the accumulator from point to point: it starts as the class's (the accumulator at anything) and ends by
    forgetting what the accumulator holds. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm (F := F) 1).1 ∗ Pipeline.scopedRest (Ix := Unit) (Name := ℕ) (U := UR sig nD τ) (Lvl := ℕ) spec1 c)
        ⊢ (Pipeline.ΦA spec1 c : sProp 𝕄) from by
      unfold Pipeline.ΦA
      iintro ⟨Hp, -, Hr⟩
      isplitl [Hr]; · iexact Hr
      iexact Hp).trans (hin1 (Vin1 m ρ) c)
  hout c :=
    (hout1 (Vin1 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four pieces, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state every buffer that outlives a launch holds the end's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame claim's post, at any `F`: every argument ends as it started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Word.Blocks.lean ====
/-
  A window's block at a grid point, read off its array as the region finds it: the block of window `w` at point `t`
  is the restriction of the array (the contents `V` holds for the window's buffer when the region is entered) to the
  rectangle the window's index map assigns to `t`. One definition per pallas_call; everything said about what a
  kernel body is handed is said through these.
-/
import proofs.«162470_j34677565948161_2_alg».proof.Proof.Gen.Kernel.Launch
import proofs.«162470_j34677565948161_2_alg».proof.Proof.Gen.Kernel.Points

noncomputable section

namespace Cert.Kernel.Hand

open Idealize.ShloMosaic Idealize.ShloMosaic.TcCoe Idealize.SL.Sem
open Cert.Kernel Cert.Kernel.Gen

variable {F : FTy → Type} [FloatOps F]
variable (V : (c : Dev nD) → (b : Ref sig .tc) → Buf (Elt F) ((c : Thread nD τ).loc b))

/-- The dequantisation call: window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix-product call: window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.Kernel.Hand

end
-- ==== Proof.Word.DequantBody.lean ====
/-
  The dequantisation call, body by body.

  At every grid point the kernel body reads its weight block and its block of scales, and overwrites the whole
  output block with one value computed from the two: the transposed weight block divided, group of 128 rows by group,
  by the scales plus epsilon, rounded to the nearest integer and multiplied by the same step again. This file says what
  the body leaves in each window's buffer in terms of the blocks it was handed, and discharges the obligation the
  pipeline asks of a body, at every point, for any scalar model.
-/
import proofs.«162470_j34677565948161_2_alg».proof.Proof.Gen.Kernel.Launch
import proofs.«162470_j34677565948161_2_alg».proof.Proof.Gen.Kernel.Skeleton
import proofs.«162470_j34677565948161_2_alg».proof.Proof.Gen.Kernel.Points
import proofs.«162470_j34677565948161_2_alg».proof.Proof.Word.Blocks
import Idealize.ShloMosaic.Lib.Pipeline.FrameBody
import Idealize.ShloMosaic.Lib.Ring
import Idealize.ShloMosaic.Lib.Tactic

-- membership of an index in a rectangle with a thousand coordinates per axis is looked at one coordinate at a time
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the dequantisation call is entered
variable (V : (c : Dev nD) → (b : Ref sig .tc) → Buf (Elt F) ((c : Thread nD τ).loc b))

/-! ## The input windows hold their blocks -/

/-- The weight window's current buffer holds the weight block of the point, whether it was copied in at this very
    point or earlier: for any proof data whose array is the entry contents and whose body leaves the block alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the window of scales. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole block -/

/-- The whole 1024 × 1024 block (the weight block read, the output block written). -/
abbrev rW0 : Rect S1024x1024 := Rect.unit (s := S1024x1024) ![0, 0] S1024x1024.size inb_S1024x1024_S1024x1024_0_0
/-- The whole 8 × 1024 block of scales. -/
abbrev rS0 : Rect S8x1024 := Rect.unit (s := S8x1024) ![0, 0] S8x1024.size inb_S8x1024_S8x1024_0_0

/-! ## What the body leaves in the output window's buffer -/

/-- The output block after the body, from the two input blocks: the one store, of the dequantised block computed from
    the weight block and the block of scales as read. -/
def out0_2 (x0 : Vec F S1024x1024 .f32) (x1 : Vec F S8x1024 .f32) : Vec F S1024x1024 .bf16 :=
  View.canon [⟨rW0, k0_pay1 (View.ld x0 rW0) (View.ld x1 rS0)⟩]

/-- The one store is of the whole block, so every index of the block is written. -/
theorem cover0_2 (p0 : Vec F S1024x1024 .bf16) (y : S1024x1024.Idx) :
    ∃ pc ∈ ([⟨rW0, p0⟩] : List (View.Piece (Elt F) S1024x1024 .bf16)), y ∈ pc.1.set :=
  View.cover_of_tiled [⟨rW0, p0⟩] S1024x1024.size (by rfl) y

/-! ## The body's triple -/

set_option maxHeartbeats 1000000 in
/-- The kernel body on whole buffers — the weight block `x0`, the scales `x1`, the output at anything — runs to a state
    where the inputs are as they were and the output holds `out0_2 x0 x1`: two reads, a read of the output whose value
    is not used, and one store of the whole block. -/
theorem sound_kernel0 (c : Dev nD) (E : Set ℕ) (i : grid0.Coords) (arg2 : Memref sig .tc .vmem S1024x1024 .f32) (harg2 : arg2.IsWhole) (arg3 : Memref sig .tc .vmem S8x1024 .f32) (harg3 : arg3.IsWhole) (arg4 : Memref sig .tc .vmem S1024x1024 .bf16) (harg4 : arg4.IsWhole)
    (x0 : Vec F S1024x1024 .f32) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__dequant_kernel i arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the dequantisation call on core `c`: the arrays as the call finds them; after the body at point
    `t` each input's buffer still at its block and the output's at `out0_2` of the two input blocks; the invariant is
    the rest of the core's state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Word.MatmulBody.lean ====
/-
  The matrix-product call: what its body does at one grid point, and the invariant that carries the accumulator
  from point to point.

  The call computes `out[i, j] = (∑ k, x[i, k] · w[k, j]) + bias[j]` block by block: its grid is 8 × 4 × 4 over the
  block coordinates `(i, j, k)`, the contraction coordinate `k` innermost, so four consecutive points share one
  output block `(i, j)`. At `k = 0` the body zeroes a scratch accumulator; at every point it adds to the
  accumulator the product of the point's block of `x` and block of `w`; at `k = 3` it stores the accumulator plus
  the bias row, broadcast down the rows, into the output block. Elsewhere the output block is not touched and not
  written back.

  Stated here, for any float semantics `F` and any contents `V` of the arrays when the call is entered:
  the three steps of the body as triples with explicit results (`runA`, `runB`, `runC`); the accumulator after
  each point by recursion on the point (`accAt1`: it restarts from zero at the points ≡ 0 mod 4 and otherwise
  continues from the point before); the proof data of the call (`dat1`: an output block, where it is stored, is the
  accumulator after that point plus the bias); and the body obligation with the entry and exit entailments of the
  invariant.
-/
import proofs.«162470_j34677565948161_2_alg».proof.Proof.Word.Blocks
import proofs.«162470_j34677565948161_2_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a load or store of a whole buffer: all zero. -/
theorem hz : (![0, 0] : Fin 2 → Nat) = fun _ => 0 := funext fun a => by fin_cases a <;> rfl

/-- The condition under which the body zeroes the accumulator, from the grid coordinates: the innermost
    coordinate is 0. -/
abbrev cond1_0 (i : grid1.Coords) : Prop := (Scalar.cmpi .ne (Scalar.extui (Scalar.cmpi .eq (BitVec.ofNat 32 (i 2).val) 0#32)) 0#32) = 1#1
/-- The condition under which the body stores the output block: the innermost coordinate is 3. -/
abbrev cond1_1 (i : grid1.Coords) : Prop := k1_cond2 i = 1#1

/-! ## Whole-buffer loads and stores

Every load and store of the body goes through the rectangle of the buffer's full sizes at offsets zero: a load
reads the contents, a last store leaves its payload, and a load after such a store reads that payload. -/

/-- A load of a whole 1024×1024 buffer owned at `X` reads `X`. -/
theorem load_sq {e : EltTy} (m : Memref sig .tc .vmem S1024x1024 e) (h : m.IsWhole) (X : Vec F S1024x1024 e) :
    View.readAt (Elt F) m.view (Rect.unit (s := S1024x1024) ![0, 0] S1024x1024.size inb_S1024x1024_S1024x1024_0_0).toLoadRect (h.unread X) = X := by
  rw [View.readAt_eq_ld, h.read_unread, View.ld_unit_zero (S := S1024x1024) hz]

/-- A load of a whole 1×1024 buffer owned at `X` reads `X`. -/
theorem load_row {e : EltTy} (m : Memref sig .tc .vmem S1x1024 e) (h : m.IsWhole) (X : Vec F S1x1024 e) :
    View.readAt (Elt F) m.view (Rect.unit (s := S1x1024) ![0, 0] S1x1024.size inb_S1x1024_S1x1024_0_0).toLoadRect (h.unread X) = X := by
  rw [View.readAt_eq_ld, h.read_unread, View.ld_unit_zero (S := S1x1024) hz]

/-- After stores the last of which fills the whole buffer with `p`, the buffer reads `p`. -/
theorem read_last_sq {e : EltTy} (v : View sig .tc .vmem S1024x1024 e) (f : v.ty.Contents (Elt F)) (p : Vec F S1024x1024 e)
    (L : List (View.Piece (Elt F) S1024x1024 e)) :
    v.read (Elt F) (v.writes (Elt F) f (⟨Rect.unit (s := S1024x1024) ![0, 0] S1024x1024.size inb_S1024x1024_S1024x1024_0_0, p⟩ :: L)) = p := by
  rw [View.read_writes_eq_canon _ _ _ (fun y => ⟨_, List.mem_cons_self .., View.mem_set_unit_zero hz inb_S1024x1024_S1024x1024_0_0 y⟩),
    View.canon_cons_unit_zero (S := S1024x1024) hz]

/-- A load of the whole buffer after one store that filled it with `p` reads `p`. -/
theorem readCov_sq {e : EltTy} (v : View sig .tc .vmem S1024x1024 e) (p : Vec F S1024x1024 e) :
    v.readCov [(⟨Rect.unit (s := S1024x1024) ![0, 0] S1024x1024.size inb_S1024x1024_S1024x1024_0_0, p⟩ : View.Piece (Elt F) S1024x1024 e)]
      (Rect.unit (s := S1024x1024) ![0, 0] S1024x1024.size inb_S1024x1024_S1024x1024_0_0).toLoadRect = p :=
  View.readCov_unit_zero (S := S1024x1024) v hz _ p

/-! ## The three steps of the body

On whole staging buffers: the inputs at their contents `x`, `w`, `b`; the output block and the accumulator as each
step needs them. Each step runs to a continuation that holds the inputs as they were and the output block and the
accumulator at the stated results. -/

set_option maxHeartbeats 1000000 in
/-- THE FIRST STEP OF A RUN OF FOUR (innermost coordinate 0): whatever the accumulator held, the body zeroes it
    and leaves `0 + x·w` in it; the inputs and the output block are left as they were. -/
theorem runA (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : cond1_0 i) (hc1 : ¬cond1_1 i)
    (x w : Vec F S1024x1024 .bf16) (b : Vec F S1x1024 .f32) (xo : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare xo ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare (xo) ∗ owns (c : Thread nD τ) arg7 fullShare (k1_pay2 x w (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  refine (read_last_sq _ _ _ _).trans ?_
  sl_unfold_words
  rw [readCov_sq, load_sq, load_sq]

set_option maxHeartbeats 1000000 in
/-- A MIDDLE STEP (innermost coordinate 1 or 2): with the accumulator holding `s`, the body leaves `s + x·w` in
    it; the inputs and the output block are left as they were. -/
theorem runB (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : ¬cond1_0 i) (hc1 : ¬cond1_1 i)
    (x w : Vec F S1024x1024 .bf16) (b : Vec F S1x1024 .f32) (xo s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare xo ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (xo) ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  refine (read_last_sq _ _ _ _).trans ?_
  sl_unfold_words
  rw [load_sq, load_sq, load_sq]

set_option maxHeartbeats 1000000 in
/-- THE LAST STEP OF A RUN OF FOUR (innermost coordinate 3): with the accumulator holding `s`, the body leaves
    `s + x·w` in it and stores that plus the broadcast bias into the output block, whatever the block held; the
    inputs are left as they were. -/
theorem runC (c : Dev nD) (i : grid1.Coords)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : ¬cond1_0 i) (hc1 : cond1_1 i)
    (x w : Vec F S1024x1024 .bf16) (b : Vec F S1x1024 .f32) (s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w s) b) ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (read_last_sq _ _ _ _).trans ?_
    sl_unfold_words
    rw [readCov_sq, load_sq, load_sq, load_sq, load_row]
  iexists _; isplitr
  swap; · iexact HS
  ipureintro
  sl_unfold_words
  refine (read_last_sq _ _ _ _).trans ?_
  sl_unfold_words
  rw [load_sq, load_sq, load_sq]

/-! ## The schedule in closed form

The grid is 8 × 4 × 4 with the contraction coordinate innermost, so point `t` has contraction coordinate `t % 4`:
the accumulator is zeroed where that is 0 and the output block stored where it is 3. -/

/-- The accumulator is zeroed exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The output block is stored exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The three inputs are read at every point. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- Away from the points ≡ 3 (mod 4) the body stores nothing into the output block, -/
theorem idleAt1_3 : ∀ t : Fin cfg1.N, ¬t.val % 4 = 3 → cfg1.idle 3 (grid1.coords t) = true :=
  (by decide +kernel : ∀ t : Fin grid1.N, ¬t.val % 4 = 3 → idle1 3 (grid1.coords t) = true)
/-- and the block is not written back there; -/
theorem noFlush1_3 (t : Fin cfg1.N) (h : ¬t.val % 4 = 3) : (cfg1.win 3).flush t = false := by
  cases hf : (cfg1.win 3).flush t
  · rfl
  · exact absurd ((flush1_3 t).mp hf) h
/-- at those points it stores the whole block. -/
theorem liveAt1_3 : ∀ t : Fin cfg1.N, t.val % 4 = 3 → cfg1.idle 3 (grid1.coords t) = false :=
  (by decide +kernel : ∀ t : Fin grid1.N, t.val % 4 = 3 → idle1 3 (grid1.coords t) = false)

/-! ## The accumulator, point by point -/

variable (V : (c : Dev nD) → (b : Ref sig .tc) → Buf (Elt F) ((c : Thread nD τ).loc b))

/-- What the accumulator holds after point `n`: at the first point of a run of four the product of that point's
    blocks added to zero, afterwards the product of the point's blocks added to what the point before left. -/
def accAt1 (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

/-- At the first point of a run of four the sum starts from zero. -/
theorem accAt1_first (c : Dev nD) (t : Fin cfg1.N) (h : t.val % 4 = 0) :
    accAt1 V c t.val t.isLt = k1_pay2 (iblk1 V c 0 t) (iblk1 V c 1 t) (k1_pay1 (F := F)) := by
  obtain ⟨n, hn⟩ := t
  cases n with
  | zero => rfl
  | succ n => exact if_pos h

/-- At the other points it continues from what the point before left. -/
theorem accAt1_next (c : Dev nD) (t : Fin cfg1.N) (h : ¬t.val % 4 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points

Besides the windows' staging buffers the core holds, of its scoped memory, the accumulator, the six staging buffers
of the other call (untouched here: an opaque rest), and the generator register. -/

/-- The accumulator as a memref: the kernel's own whole scoped buffer. -/
abbrev scM1 : Memref sig .tc .vmem S1024x1024 .f32 := Memref.whole cc1_scratch0

/-- The staging buffers of the other call, each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- What the region is entered with gives the accumulator at some contents, the rest, and the register; -/
theorem PhiA1_fwd (c : Dev nD) :
    (Pipeline.ΦA spec1 c : sProp 𝕄)
      ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨H0, H1, H2, H3, H4, H5, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    iexact H5
  iexact Hg

/-- and those three give it back. -/
theorem PhiA1_bwd (c : Dev nD) :
    iprop((∃ d, owns (c : Thread nD τ) scM1 fullShare d) ∗ rest1 c ∗ (∃ r, prngReg c r))
      ⊢ (Pipeline.ΦA spec1 c : sProp 𝕄) := by
  unfold Pipeline.ΦA rest1; rw [scopedRest1_eq]; simp only [scM1, owns_whole]
  iintro ⟨HS, ⟨H0, H1, H2, H3, H4, H5⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    iexact HS
  iexact Hg

/-- So what the region is entered with IS those three. -/
theorem PhiA1_eq (c : Dev nD) :
    (Pipeline.ΦA spec1 c : sProp 𝕄)
      = iprop((∃ d, owns (c : Thread nD τ) scM1 fullShare d) ∗ rest1 c ∗ (∃ r, prngReg c r)) :=
  BI.equiv_iff.mp ⟨PhiA1_fwd c, PhiA1_bwd c⟩

/-- The invariant before position `n`: before the first point what the region is entered with; afterwards the
    accumulator at what the point before left in it, the rest, and the register at some state. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ rest1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (accAt1 V c n hn) ∗ rest1 c ∗ (∃ r, prngReg c r)) := rfl

theorem PhiS1_pos (c : Dev nD) (n : ℕ) (h : n ≤ cfg1.N) (hz : n ≠ 0) :
    PhiS1 V c n h = iprop(owns (c : Thread nD τ) scM1 fullShare (accAt1 V c (n - 1) (by omega)) ∗ rest1 c ∗ (∃ r, prngReg c r)) := by
  cases n with
  | zero => exact absurd rfl hz
  | succ n => rfl

/-! ## The proof data -/

/-- The proof data of the matrix-product call on core `c`: the arrays as the region finds them; after the body at
    point `t` each input's staging buffer at its block (the body stores into none), the output's at the accumulated
    sum plus the bias where the block is stored (elsewhere it is handed back as found, and the entry is a
    placeholder); the invariant above; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => if t.val % 4 = 3 then k1_pay3 (accAt1 V c t.val t.isLt) (iblk1 V c 2 t) else k1_pay1 (F := F)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- Where the output block is stored it is the accumulated sum plus the bias. -/
theorem after1_3 (c : Dev nD) (t : Fin cfg1.N) (h : t.val % 4 = 3) :
    (dat1 V c).after 3 t = k1_pay3 (accAt1 V c t.val t.isLt) (iblk1 V c 2 t) := by
  dsimp only [dat1]; exact if_pos h

/-- Each input's current staging buffer holds its block at every point, fetched there or not: where it is not
    fetched the block index has not moved since the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body at a generic point -/

/-- Each window's current staging memref at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- What the body is called with at point `t`: the invariant, what the core owes, and each window's current
    staging buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the residue of the point modulo 4 says which step
    of a run of four it is; the invariant hands the body the accumulator at what the point before left (at anything
    at the very first point, and at the first step of every run the body does not read it), and takes it back at this
    point's sum; the output block is stored at the last step of a run and handed back untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases h0 : t.val % 4 = 0
  · have h1 : ¬t.val % 4 = 3 := by omega
    rw [Dat.leavesExact_idle (dat1 V c) 3 t (idleAt1_3 t h1) (noFlush1_3 t h1)]
    rw [accAt1_first V c t h0]
    by_cases hz : t.val = 0
    · rw [PhiS1_castSucc V c t, PhiS1_zero V c _ _ hz, PhiA1_eq]
      iintro ⟨⟨HS, HR, Hg⟩, Ho, ⟨%d0, H0⟩, ⟨%d1, H1⟩, ⟨%d2, H2⟩, ⟨%d3, H3⟩⟩
      iapply (runA c (grid1.coords t) (ms1_0 t) (hs1_0 t) (ms1_1 t) (hs1_1 t) (ms1_2 t) (hs1_2 t) (ms1_3 t) (hs1_3 t) scM1 (Memref.isWhole_whole _)
        ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR, Hg⟩, Ho, ⟨%d0, H0⟩, ⟨%d1, H1⟩, ⟨%d2, H2⟩, ⟨%d3, H3⟩⟩
      iapply (runA c (grid1.coords t) (ms1_0 t) (hs1_0 t) (ms1_1 t) (hs1_1 t) (ms1_2 t) (hs1_2 t) (ms1_3 t) (hs1_3 t) scM1 (Memref.isWhole_whole _)
        ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt1_next V c t h0]
    rw [PhiS1_castSucc V c t, PhiS1_pos V c _ _ hz]
    by_cases h1 : t.val % 4 = 3
    · rw [show (dat1 V c).leavesExact 3 t = owns (c : Thread nD τ) (ms1_3 t) fullShare ((dat1 V c).after 3 t) from by
        unfold Dat.leavesExact; rw [liveAt1_3 t h1], after1_3 V c t h1, accAt1_next V c t h0]
      iintro ⟨⟨HS, HR, Hg⟩, Ho, ⟨%d0, H0⟩, ⟨%d1, H1⟩, ⟨%d2, H2⟩, ⟨%d3, H3⟩⟩
      iapply (runC c (grid1.coords t) (ms1_0 t) (hs1_0 t) (ms1_1 t) (hs1_1 t) (ms1_2 t) (hs1_2 t) (ms1_3 t) (hs1_3 t) scM1 (Memref.isWhole_whole _)
        (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨HS, HR, Hg⟩, Ho, ⟨%d0, H0⟩, ⟨%d1, H1⟩, ⟨%d2, H2⟩, ⟨%d3, H3⟩⟩
      iapply (runB c (grid1.coords t) (ms1_0 t) (hs1_0 t) (ms1_1 t) (hs1_1 t) (ms1_2 t) (hs1_2 t) (ms1_3 t) (hs1_3 t) scM1 (Memref.isWhole_whole _)
        (fun h => h0 ((hcond1_0 t).mp h)) (fun h => h1 ((hcond1_1 t).mp h)) (iblk1 V c 0 t) (iblk1 V c 1 t) (iblk1 V c 2 t) ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the matrix-product call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: what the accumulator holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS, HR, Hg⟩
  isplitl [HS]
  · iexists _; iexact HS
  isplitl [HR]; · iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 128 := N_1; omega)

end Cert.Kernel.Hand

end
-- ==== Proof.Word.Boundaries.lean ====
/-
  The contents of every buffer that outlives a launch, followed through the program one boundary at a time:
  `W0` at the start; `W1` after the dequantisation launch (its output array now holds what that launch's grid
  points wrote back, everything else as before); `W2` after the host lines that flatten the activations to rows,
  change their format and give the bias a unit axis; `W3` after the matrix-product launch; `W4` after the last
  reshape. No boundary writes an argument: an argument's buffer walks back from `W4` to the start unchanged.
-/
import proofs.«162470_j34677565948161_2_alg».proof.Proof.Word.DequantBody
import proofs.«162470_j34677565948161_2_alg».proof.Proof.Word.MatmulBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At the start. -/
abbrev W0 : Dev nD → Valuation τ sig (Elt F) := fun c b => (s₀ m ρ).mem ((c : Dev nD), b)
/-- The same, read at a buffer's name (what the dequantisation launch's windows are cut from). -/
abbrev Vin0 : (c : Dev nD) → (b : Ref sig .tc) → Buf (Elt F) ((c : Thread nD τ).loc b) := fun c b => W0 m ρ c b
/-- After the dequantisation launch: its arrays at what its write-backs leave, everything else as before. -/
def W1 (c : Dev nD) : Valuation τ sig (Elt F) :=
  Pipeline.withArrays spec0 c (W0 m ρ c) fun w => (dat0 (Vin0 m ρ) c).arrAt w cfg0.N
theorem W1_arr (c : Dev nD) (w : Fin cfg0.W) :
    W1 m ρ c (Proc.devRef .tc (Pipeline.arrRef spec0 w)) = (dat0 (Vin0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vout0 : (c : Dev nD) → (b : Ref sig .tc) → Buf (Elt F) ((c : Thread nD τ).loc b) := fun c b => W1 m ρ c b
theorem hF0 (c : Dev nD) (w : Fin cfg0.W) : (dat0 (Vin0 m ρ) c).arrAt w cfg0.N = Vout0 m ρ c (Pipeline.arrRef spec0 w) :=
  (W1_arr m ρ c w).symm
theorem hrest0 (c : Dev nD) : ∀ b, b ∉ Finset.univ.image (Pipeline.arrRef spec0) → Vout0 m ρ c b = Vin0 m ρ c b :=
  fun b hb => W1_of_ne m ρ c b fun w e => hb (Finset.mem_image.mpr ⟨w, Finset.mem_univ _, e⟩)

/-- After the host lines between the launches. -/
abbrev W2 : Dev nD → Valuation τ sig (Elt F) := fun c => StableHlo.after hostOps1 (W1 m ρ c)
/-- The same, read at a buffer's name (what the matrix-product launch's windows are cut from). -/
abbrev Vin1 : (c : Dev nD) → (b : Ref sig .tc) → Buf (Elt F) ((c : Thread nD τ).loc b) := fun c b => W2 m ρ c b
/-- After the matrix-product launch. -/
def W3 (c : Dev nD) : Valuation τ sig (Elt F) :=
  Pipeline.withArrays spec1 c (W2 m ρ c) fun w => (dat1 (Vin1 m ρ) c).arrAt w cfg1.N
theorem W3_arr (c : Dev nD) (w : Fin cfg1.W) :
    W3 m ρ c (Proc.devRef .tc (Pipeline.arrRef spec1 w)) = (dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vout1 : (c : Dev nD) → (b : Ref sig .tc) → Buf (Elt F) ((c : Thread nD τ).loc b) := fun c b => W3 m ρ c b
theorem hF1 (c : Dev nD) (w : Fin cfg1.W) : (dat1 (Vin1 m ρ) c).arrAt w cfg1.N = Vout1 m ρ c (Pipeline.arrRef spec1 w) :=
  (W3_arr m ρ c w).symm
theorem hrest1 (c : Dev nD) : ∀ b, b ∉ Finset.univ.image (Pipeline.arrRef spec1) → Vout1 m ρ c b = Vin1 m ρ c b :=
  fun b hb => W3_of_ne m ρ c b fun w e => hb (Finset.mem_image.mpr ⟨w, Finset.mem_univ _, e⟩)
/-- After the last reshape: the end. -/
abbrev W4 : Dev nD → Valuation τ sig (Elt F) := fun c => StableHlo.after hostOps2 (W3 m ρ c)

/-! ## No line and no launch writes an argument -/

theorem hostOps1_not_written (b : Ref sig .tc) (hb : b ∉ ([main_v1, main_v2, main_v3] : List (Ref sig .tc))) (X : Valuation τ sig (Elt F)) :
    StableHlo.after hostOps1 X (Proc.devRef .tc b) = X (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.mem_nil_iff, or_false, not_or] at hb
    exact ⟨StableHlo.devRef_ne_of_ne hb.1, StableHlo.devRef_ne_of_ne hb.2.1, StableHlo.devRef_ne_of_ne hb.2.2⟩))
theorem hostOps2_not_written (b : Ref sig .tc) (hb : b ≠ main_v5) (X : Valuation τ sig (Elt F)) :
    StableHlo.after hostOps2 X (Proc.devRef .tc b) = X (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-! ## The arguments end as they started -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_not_written main_arg0 (by decide) _
    _ = W2 m ρ c (Proc.devRef .tc main_arg0) := W3_of_ne m ρ c main_arg0 (by decide)
    _ = W1 m ρ c (Proc.devRef .tc main_arg0) := hostOps1_not_written main_arg0 (by decide) _
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps2_not_written main_arg1 (by decide) _
    _ = W2 m ρ c (Proc.devRef .tc main_arg1) := W3_of_ne m ρ c main_arg1 (by decide)
    _ = W1 m ρ c (Proc.devRef .tc main_arg1) := hostOps1_not_written main_arg1 (by decide) _
    _ = W0 m ρ c (Proc.devRef .tc main_arg1) := (W1_arr m ρ c 0).trans (((dat0 (Vin0 m ρ) c).arrAt_in 0 rfl _).trans (A_eq0 (Vin0 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := hostOps2_not_written main_arg2 (by decide) _
    _ = W2 m ρ c (Proc.devRef .tc main_arg2) := W3_of_ne m ρ c main_arg2 (by decide)
    _ = W1 m ρ c (Proc.devRef .tc main_arg2) := hostOps1_not_written main_arg2 (by decide) _
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := hostOps2_not_written main_arg3 (by decide) _
    _ = W2 m ρ c (Proc.devRef .tc main_arg3) := W3_of_ne m ρ c main_arg3 (by decide)
    _ = W1 m ρ c (Proc.devRef .tc main_arg3) := hostOps1_not_written main_arg3 (by decide) _
    _ = W0 m ρ c (Proc.devRef .tc main_arg3) := (W1_arr m ρ c 1).trans (((dat0 (Vin0 m ρ) c).arrAt_in 1 rfl _).trans (A_eq0 (Vin0 m ρ) c 1))
    _ = m ((c : Thread nD τ).loc main_arg3) := rfl

end Cert.Kernel.Hand

end
-- ==== Proof.Word.Run.lean ====
/-
  The whole run of the program: two kernel launches with host lines between and after them.

  Each launch is entered holding every buffer that outlives it at one boundary's contents and left holding it at the
  next boundary's; the dequantisation launch keeps only the class's untouched rest between its points, the
  matrix-product launch carries its accumulator. The run theorem reads every such buffer of the final state at the
  last boundary's contents; the frame claim (the four arguments end as they started) is read off it.
-/
import proofs.«162470_j34677565948161_2_alg».proof.Proof.Word.Boundaries
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both launches, and what rides beside the buffers -/

/-- Neither launch reads a prefetched table. -/
abbrev adm : (p : Fin 2) → (pcfgs (F := F) p).Adm := fun p => (cfgs p).toPCfg_adm
/-- Each launch's proof data at the contents it is entered from. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A stretch of host lines from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`: every buffer at the end's contents, the generator register at some state. -/
abbrev Tₙ (c : Dev nD) : sProp 𝕄 := iprop(StableHlo.held (c : Thread nD τ) (Pipeline.ucRefs τ sig) (W4 m ρ c) ∗ ∃ r, prngReg c r)

/-! ## The launches -/

set_option backward.isDefEq.respectTransparency.types false in
/-- The dequantisation launch: entered from every buffer at `W0`, left at `W1`. Its three arrays are split out of the
    buffers and put back at what the write-backs leave; the generator register goes into the class's invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product launch: entered from every buffer at `W2`, left at `W3`. As above, except that its invariant
    carries the accumulator from point to point: it starts as the class's (the accumulator at anything) and ends by
    forgetting what the accumulator holds. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm (F := F) 1).1 ∗ Pipeline.scopedRest (Ix := Unit) (Name := ℕ) (U := UR sig nD τ) (Lvl := ℕ) spec1 c)
        ⊢ (Pipeline.ΦA spec1 c : sProp 𝕄) from by
      unfold Pipeline.ΦA
      iintro ⟨Hp, -, Hr⟩
      isplitl [Hr]; · iexact Hr
      iexact Hp).trans (hin1 (Vin1 m ρ) c)
  hout c :=
    (hout1 (Vin1 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four pieces, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state every buffer that outlives a launch holds the end's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame claim's post, at any `F`: every argument ends as it started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.Spec.lean ====
/-
  The mathematics both programs compute, index by index, on the extended reals.

  A weight matrix `w[n, k]` (4096 × 4096) is quantised in groups of 128 consecutive `k`: with the step
  `s[g, n] + ε` of group `g = k / 128` and output channel `n`, the dequantised weight is
  `wdq[k, n] = roundeven (w[n, k] / step) · step`. The result is the affine map
  `out[b, s, n] = (∑ k, x[b, s, k] · wdq[k, n]) + bias[n]`.
  No program is imported here: the shapes are the literal ones.
-/
import Idealize.ShloMosaic.PureOps.Ideal
import Idealize.ShloMosaic.Lib.ValueIdx

noncomputable section

namespace Cert.Spec

open Idealize.ShloMosaic Idealize.ShloMosaic.ValueIdx

/-- The group of 128 consecutive rows that row `k` of the transposed weight lies in. -/
def grp (k : Fin 4096) : Fin 32 := ⟨k.val / 128, by have := k.isLt; omega⟩

/-- The quantisation step of group `g` and output channel `n`: the stored scale plus the shared epsilon
    (the binary32 literal nearest 1e-8, the same word in both programs). -/
def step (sc : (⟨2, ![32, 4096]⟩ : Shape).Idx → EReal) (g : Fin 32) (n : Fin 4096) : EReal :=
  sc (ix2 g n) + Ideal.ofBits .f32 0x322BCC77#32

/-- The dequantised, transposed weight `wdq[k, n]`: the weight `w[n, k]` divided by its group's step, rounded to the
    nearest integer (ties to even), times the step again. -/
def wdq (w : (⟨2, ![4096, 4096]⟩ : Shape).Idx → EReal) (sc : (⟨2, ![32, 4096]⟩ : Shape).Idx → EReal)
    (k n : Fin 4096) : EReal :=
  Ideal.liftRound Ideal.roundHalfEven (Ideal.div (w (ix2 n k)) (step sc (grp k) n)) * step sc (grp k) n

/-- The whole result: every row of `x` against the dequantised weight, plus the bias of the output channel. -/
def G (x : (⟨3, ![4, 2048, 4096]⟩ : Shape).Idx → EReal) (w : (⟨2, ![4096, 4096]⟩ : Shape).Idx → EReal)
    (b : (⟨1, ![4096]⟩ : Shape).Idx → EReal) (sc : (⟨2, ![32, 4096]⟩ : Shape).Idx → EReal) :
    (⟨3, ![4, 2048, 4096]⟩ : Shape).Idx → EReal :=
  fun i => (∑ k : Fin 4096, x (ix3 (i 0) (i 1) k) * wdq w sc k (i 2)) + b (ix1 (i 2))

end Cert.Spec

end
-- ==== Proof.DequantValue.lean ====
/-
  The dequantisation call, read at an index of its output array, on the extended reals.

  First the body's value at one element of a block: the element (p, q) of the output block is the element (q, p) of the
  weight block divided by the step of row group p / 128 and column q, rounded to the nearest integer (ties to even),
  times that step. Then the blocks are put back into the arrays they were cut from, and the whole output array after
  the call is the dequantised, transposed weight of the specification.
-/
import proofs.«162470_j34677565948161_2_alg».proof.Proof.DequantBody
import proofs.«162470_j34677565948161_2_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

/-! ## The body's value at an element of the block -/

/-- The row group of a block row: 128 consecutive rows share a row of scales. -/
def dqRowGroup (p : Fin 1024) : Fin 8 := ⟨p.val / 128, by have := p.isLt; omega⟩

/-- The place of a block row inside its group. -/
def dqRowInGroup (p : Fin 1024) : Fin 128 := ⟨p.val % 128, Nat.mod_lt _ (by decide)⟩

/-- The step the body divides and multiplies by at block row group `g` and column `q`: the scale read plus epsilon. -/
def dqStep (x1 : Vec Ideal S8x1024 .f32) (g : Fin 8) (q : Fin 1024) : EReal :=
  x1 (ix2 g q) + Ideal.ofBits .f32 0x322BCC77#32

/-- The scales plus epsilon, given a unit middle axis and repeated along it 128 times, read at (g, r, q): the step of
    group g and column q. -/
theorem dq_steps_apply (x1 : Vec Ideal S8x1024 .f32) (g : Fin 8) (r : Fin 128) (q : Fin 1024) :
    (broadcastTo S8x128x1024 (shapeCast S8x1x1024 (addf x1 (broadcast S8x1024 (FloatOps.ofBits (F := Ideal) .f32 0x322BCC77#32)))
        shapeCasts_S8x1024_S8x1x1024) broadcasts_S8x1x1024_S8x128x1024 : FVec Ideal S8x128x1024 .f32) (ix3 g r q)
      = dqStep x1 g q := by
  refine (broadcastTo_apply _ _ (ix3 g r q) (ix3 g (0 : Fin 1) q) (fun a => ?_)).trans ?_
  · match a with
    | ⟨0, _⟩ => rfl
    | ⟨1, _⟩ => rfl
    | ⟨2, _⟩ => rfl
  refine (shapeCast_apply _ _ (ix3 g (0 : Fin 1) q) (ix2 g q) ?_).trans ?_
  · rw [Shape.rowMajor_val_two, Shape.rowMajor_val_three]
    show g.val * 1024 + q.val = (g.val * 1 + 0) * 1024 + q.val
    omega
  rfl

/-- The transposed weight block, cut into 8 groups of 128 rows, read at (g, r, q): the weight block at column
    g · 128 + r of row q. -/
theorem dq_grouped_transpose_apply (x0 : Vec Ideal S1024x1024 .f32) (p q : Fin 1024) :
    (shapeCast S8x128x1024 (transpose S1024x1024 [1, 0] x0 transposes_S1024x1024_p1_0_S1024x1024)
        shapeCasts_S1024x1024_S8x128x1024 : FVec Ideal S8x128x1024 .f32) (ix3 (dqRowGroup p) (dqRowInGroup p) q)
      = x0 (ix2 q p) := by
  refine (shapeCast_apply _ _ (ix3 (dqRowGroup p) (dqRowInGroup p) q) (ix2 p q) ?_).trans ?_
  · rw [Shape.rowMajor_val_two, Shape.rowMajor_val_three]
    show p.val * 1024 + q.val = (p.val / 128 * 128 + p.val % 128) * 1024 + q.val
    omega
  refine transpose_apply _ _ _ (ix2 p q) (ix2 q p) (fun b => ?_)
  match b with
  | ⟨0, _⟩ => rfl
  | ⟨1, _⟩ => rfl

/-- THE BODY AT AN ELEMENT: element (p, q) of the block the body stores. -/
theorem dequant_block_apply (x0 : Vec Ideal S1024x1024 .f32) (x1 : Vec Ideal S8x1024 .f32) (p q : Fin 1024) :
    k0_pay1 x0 x1 (ix2 p q)
      = Ideal.liftRound Ideal.roundHalfEven (Ideal.div (x0 (ix2 q p)) (dqStep x1 (dqRowGroup p) q))
          * dqStep x1 (dqRowGroup p) q := by
  unfold k0_pay1
  refine (truncf_apply (ψ := .bf16) (φ := .f32) _ bitsLt_bf16_f32 (ix2 p q)).trans ?_
  refine (shapeCast_apply _ _ (ix2 p q) (ix3 (dqRowGroup p) (dqRowInGroup p) q) ?_).trans ?_
  · rw [Shape.rowMajor_val_two, Shape.rowMajor_val_three]
    show (p.val / 128 * 128 + p.val % 128) * 1024 + q.val = p.val * 1024 + q.val
    omega
  show Ideal.liftRound Ideal.roundHalfEven (Ideal.div
        ((shapeCast S8x128x1024 (transpose S1024x1024 [1, 0] x0 transposes_S1024x1024_p1_0_S1024x1024)
          shapeCasts_S1024x1024_S8x128x1024 : FVec Ideal S8x128x1024 .f32) (ix3 (dqRowGroup p) (dqRowInGroup p) q))
        ((broadcastTo S8x128x1024 (shapeCast S8x1x1024 (addf x1 (broadcast S8x1024 (FloatOps.ofBits (F := Ideal) .f32 0x322BCC77#32)))
          shapeCasts_S8x1024_S8x1x1024) broadcasts_S8x1x1024_S8x128x1024 : FVec Ideal S8x128x1024 .f32) (ix3 (dqRowGroup p) (dqRowInGroup p) q)))
      * ((broadcastTo S8x128x1024 (shapeCast S8x1x1024 (addf x1 (broadcast S8x1024 (FloatOps.ofBits (F := Ideal) .f32 0x322BCC77#32)))
          shapeCasts_S8x1024_S8x1x1024) broadcasts_S8x1x1024_S8x128x1024 : FVec Ideal S8x128x1024 .f32) (ix3 (dqRowGroup p) (dqRowInGroup p) q)) = _
  rw [dq_steps_apply, dq_grouped_transpose_apply]

/-! ## The block against the specification, by arithmetic alone -/

/-- If the weight block is the block (j, gi) of a weight array and the block of scales is the block (gi, j) of an array of
    scales — block (gi, j) of the output being computed —, the element (p, q) of what the body stores is the dequantised,
    transposed weight at row gi · 1024 + p and column j · 1024 + q: the row's group of 128 is gi · 8 + p / 128. -/
theorem dq_block_eq_wdq
    (W : (⟨2, ![4096, 4096]⟩ : Shape).Idx → EReal) (Sc : (⟨2, ![32, 4096]⟩ : Shape).Idx → EReal)
    (x0 : Vec Ideal S1024x1024 .f32) (x1 : Vec Ideal S8x1024 .f32) (gi j : Nat)
    (h0 : ∀ (a b : Fin 1024) (n k : Fin 4096), n.val = j * 1024 + a.val → k.val = gi * 1024 + b.val →
      x0 (ix2 a b) = W (ix2 n k))
    (h1 : ∀ (g : Fin 8) (b : Fin 1024) (G : Fin 32) (n : Fin 4096), G.val = gi * 8 + g.val → n.val = j * 1024 + b.val →
      x1 (ix2 g b) = Sc (ix2 G n))
    (p q : Fin 1024) (k n : Fin 4096) (hk : k.val = gi * 1024 + p.val) (hn : n.val = j * 1024 + q.val) :
    k0_pay1 x0 x1 (ix2 p q) = Cert.Spec.wdq W Sc k n := by
  rw [dequant_block_apply]
  have e1 : dqStep x1 (dqRowGroup p) q = Cert.Spec.step Sc (Cert.Spec.grp k) n := by
    unfold dqStep Cert.Spec.step
    rw [h1 (dqRowGroup p) q (Cert.Spec.grp k) n (by show k.val / 128 = gi * 8 + p.val / 128; omega) hn]
  rw [e1, h0 q p n k hn hk]
  rfl

/-! ## The blocks in their arrays -/

section Arrays

-- the buffer contents when the dequantisation call is entered
variable (V : (c : Dev nD) → (b : Ref sig .tc) → Buf (Elt Ideal) ((c : Thread nD τ).loc b))

/-- The index maps of the three windows, decided over the 16 grid points: the weight block is the output block's
    transpose position, the block of scales sits at the output block's position, and the output's block indices run
    over 0 … 3 on each axis. -/
theorem dq_blockIndex_facts : ∀ t : Fin cfg0.N,
    win0_0.index t (0 : Fin 2) = win0_2.index t (1 : Fin 2)
    ∧ win0_0.index t (1 : Fin 2) = win0_2.index t (0 : Fin 2)
    ∧ win0_1.index t (0 : Fin 2) = win0_2.index t (0 : Fin 2)
    ∧ win0_1.index t (1 : Fin 2) = win0_2.index t (1 : Fin 2)
    ∧ win0_2.index t (0 : Fin 2) ≤ 3 ∧ win0_2.index t (1 : Fin 2) ≤ 3 :=
  (by decide +kernel : ∀ t : Fin grid0.N, _)

/-- Every one of the 4 × 4 output blocks is some grid point's. -/
theorem dq_blockIndex_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- An element of the weight block at a point, in the weight array: block index times 1024 plus its own coordinate. -/
theorem dq_weight_block_apply (c : Dev nD) (t : Fin cfg0.N) (a b : Fin 1024) (n k : Fin 4096)
    (hn : n.val = win0_0.index t (0 : Fin 2) * 1024 + a.val) (hk : k.val = win0_0.index t (1 : Fin 2) * 1024 + b.val) :
    (iblk0 V c 0 t : Vec Ideal S1024x1024 .f32) (ix2 a b) = (V c main_arg1 : S4096x4096.Idx → EReal) (ix2 n k) := by
  unfold iblk0
  rw [View.read_apply]
  show (V c main_arg1 : S4096x4096.Idx → EReal) _ = _
  refine congrArg _ (funext fun d => Fin.ext ?_)
  match d with
  | ⟨0, _⟩ => show win0_0.index t (0 : Fin 2) * 1024 + 1 * a.val = n.val; omega
  | ⟨1, _⟩ => show win0_0.index t (1 : Fin 2) * 1024 + 1 * b.val = k.val; omega

/-- An element of the block of scales at a point, in the array of scales: 8 rows and 1024 columns per block. -/
theorem dq_scales_block_apply (c : Dev nD) (t : Fin cfg0.N) (g : Fin 8) (b : Fin 1024) (G : Fin 32) (n : Fin 4096)
    (hG : G.val = win0_1.index t (0 : Fin 2) * 8 + g.val) (hn : n.val = win0_1.index t (1 : Fin 2) * 1024 + b.val) :
    (iblk0 V c 1 t : Vec Ideal S8x1024 .f32) (ix2 g b) = (V c main_arg3 : S32x4096.Idx → EReal) (ix2 G n) := by
  unfold iblk0
  rw [View.read_apply]
  show (V c main_arg3 : S32x4096.Idx → EReal) _ = _
  refine congrArg _ (funext fun d => Fin.ext ?_)
  match d with
  | ⟨0, _⟩ => show win0_1.index t (0 : Fin 2) * 8 + 1 * g.val = G.val; omega
  | ⟨1, _⟩ => show win0_1.index t (1 : Fin 2) * 1024 + 1 * b.val = n.val; omega

/-- Where an element of the output block at a point sits in the output array. -/
theorem dq_out_block_emb (t : Fin cfg0.N) (p q : Fin 1024) (k n : Fin 4096)
    (hk : k.val = win0_2.index t (0 : Fin 2) * 1024 + p.val) (hn : n.val = win0_2.index t (1 : Fin 2) * 1024 + q.val) :
    (((cfg0.win 2).blk t).view.emb (ix2 p q) : S4096x4096.Idx) = ix2 k n := by
  refine funext fun d => Fin.ext ?_
  match d with
  | ⟨0, _⟩ => show win0_2.index t (0 : Fin 2) * 1024 + 1 * p.val = k.val; omega
  | ⟨1, _⟩ => show win0_2.index t (1 : Fin 2) * 1024 + 1 * q.val = n.val; omega

/-- The output array the call leaves: the dequantised, transposed weight of the two argument arrays as the call finds
    them. -/
def wdqArr (c : Dev nD) : S4096x4096.Idx → EReal :=
  fun i => Cert.Spec.wdq (V c main_arg1) (V c main_arg3) (i 0) (i 1)

theorem dq_zero_offsets : (![0, 0] : Fin 2 → Nat) = fun _ => 0 := funext fun a => by fin_cases a <;> rfl

/-- WHAT A POINT WRITES BACK is its block of the dequantised weight. -/
theorem dequant_flushed (c : Dev nD) (t : Fin cfg0.N) :
    (dat0 V c).flushed 2 t = ((cfg0.win 2).blk t).view.read (Elt Ideal) (wdqArr V c) := by
  show (cfg0.win 2).cut (grid0.coords t) ((dat0 V c).after 2 t) = _
  rw [after0_2]
  unfold out0_2
  rw [View.canon_unit_zero dq_zero_offsets]
  simp only [View.ld_unit_zero (S := S1024x1024) dq_zero_offsets, View.ld_unit_zero (S := S8x1024) dq_zero_offsets]
  obtain ⟨e0, e1, e2, e3, e4, e5⟩ := dq_blockIndex_facts t
  funext y
  obtain ⟨p, q, rfl⟩ : ∃ (p q : Fin 1024), y = (ix2 p q : S1024x1024.Idx) :=
    ⟨y 0, y 1, eq_ix2 (n0 := 1024) (n1 := 1024) y⟩
  have hk : win0_2.index t (0 : Fin 2) * 1024 + p.val < 4096 := by have := p.isLt; omega
  have hn : win0_2.index t (1 : Fin 2) * 1024 + q.val < 4096 := by have := q.isLt; omega
  show k0_pay1 (iblk0 V c 0 t) (iblk0 V c 1 t) (ix2 p q) = wdqArr V c (((cfg0.win 2).blk t).view.emb (ix2 p q))
  rw [dq_out_block_emb t p q ⟨_, hk⟩ ⟨_, hn⟩ rfl rfl]
  exact dq_block_eq_wdq (V c main_arg1) (V c main_arg3) _ _ (win0_2.index t (0 : Fin 2)) (win0_2.index t (1 : Fin 2))
    (fun a b n k hn hk => dq_weight_block_apply V c t a b n k (by rw [e0]; exact hn) (by rw [e1]; exact hk))
    (fun g b G n hG hn => dq_scales_block_apply V c t g b G n (by rw [e2]; exact hG) (by rw [e3]; exact hn))
    p q _ _ rfl rfl

/-- An index of the output array is in a point's block iff each coordinate is in the block's range on its axis. -/
theorem dq_mem_out_block (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The 16 output blocks cover the output array: the point whose block holds row k and column n has block indices
    k / 1024 and n / 1024. -/
theorem dq_out_covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := dq_blockIndex_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [dq_mem_out_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE OUTPUT ARRAY after the call is the dequantised weight. -/
theorem dequant_array_eq (c : Dev nD) : (dat0 V c).arrAt 2 cfg0.N = wdqArr V c :=
  (dat0 V c).arrAt_eq_of_cover 2 (wdqArr V c) (fun t _ => dequant_flushed V c t) dq_out_covered

/-- The same, index by index. -/
theorem dequant_array (c : Dev nD) (k n : Fin 4096) :
    (dat0 (F := Ideal) V c).arrAt 2 cfg0.N (ix2 k n) = Cert.Spec.wdq (V c main_arg1) (V c main_arg3) k n :=
  congrFun (dequant_array_eq V c) (ix2 k n)

end Arrays

end Cert.KernelIdeal.Hand

end
-- ==== Proof.MatmulPayload.lean ====
/-
  The three values the matrix-product body computes, read entry by entry on the extended reals.

  The body keeps a 1024 × 1024 accumulator. At the first step along the contraction axis it is cleared: every entry
  is 0. At every step it gains the product of the two blocks it was handed: entry (p, q) grows by
  ∑ l, x[p, l] · w[l, q], the sum over the 1024 positions of the block's contraction axis. After the last step
  the output block is the accumulator plus the bias row spread over all rows: entry (p, q) is acc[p, q] + b[0, q].
  Reshapes to the same shape are the identity and changes of float format do nothing to an extended real, so
  nothing else is left of the body.
-/
import proofs.«162470_j34677565948161_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen

/-- The dimension numbers of the body's product: rows of the left block against columns of the right block. -/
abbrev mmDims : DotDims S1024x1024 S1024x1024 S1024x1024 := dot_S1024x1024_S1024x1024_S1024x1024_1_0_0_1_n_n

/-- The cleared accumulator: every entry is 0. -/
theorem pay1_apply (p q : Fin 1024) : Gen.k1_pay1 (F := Ideal) (ix2 p q) = 0 := by
  unfold Gen.k1_pay1
  rw [shapeCast_self]
  exact Ideal.ofBits_zero_f32

/-- The left block is read at the output's row … -/
theorem mm_lhs_0 (i : S1024x1024.Idx) (k : mmDims.contr.Idx) : (mmDims.lhsIdx i k 0).val = (i 0).val := by
  unfold DotDims.lhsIdx
  rw [dif_neg (show ¬(0 : Fin S1024x1024.rank) ∈ mmDims.lhsBatch by decide),
    dif_pos (show (0 : Fin S1024x1024.rank) ∈ mmDims.lhsNonContracting by decide)]
  rfl
/-- … and at the contraction position; -/
theorem mm_lhs_1 (i : S1024x1024.Idx) (k : mmDims.contr.Idx) :
    (mmDims.lhsIdx i k 1).val = (k ⟨0, by decide⟩).val :=
  mmDims.lhsIdx_val_of_single rfl i k
/-- the right block at the contraction position … -/
theorem mm_rhs_0 (i : S1024x1024.Idx) (k : mmDims.contr.Idx) :
    (mmDims.rhsIdx i k 0).val = (k ⟨0, by decide⟩).val :=
  mmDims.rhsIdx_val_of_single rfl i k
/-- … and at the output's column. -/
theorem mm_rhs_1 (i : S1024x1024.Idx) (k : mmDims.contr.Idx) : (mmDims.rhsIdx i k 1).val = (i 1).val := by
  unfold DotDims.rhsIdx
  rw [dif_neg (show ¬(1 : Fin S1024x1024.rank) ∈ mmDims.rhsBatch by decide),
    dif_pos (show (1 : Fin S1024x1024.rank) ∈ mmDims.rhsNonContracting by decide)]
  rfl

/-- A product of two 1024 × 1024 blocks into the zero block, at entry (p, q): the sum over the contraction
    position l of x[p, l] · w[l, q]. -/
theorem matmul_zero_apply (x w : FVec Ideal S1024x1024 .bf16) (p q : Fin 1024) :
    matmul (F := Ideal) mmDims none x w (constant (F := Ideal) S1024x1024 .f32 0x00000000#32) (ix2 p q)
      = ∑ l : Fin 1024, x (ix2 p l) * w (ix2 l q) := by
  refine (Ideal.matmul_constant_zero_apply mmDims none x w (ix2 p q)).trans ?_
  rw [← Equiv.sum_comp (contrEquiv1 mmDims 1024 rfl rfl).symm]
  refine Finset.sum_congr rfl fun k _ => ?_
  have hk := contrEquiv1_symm_val mmDims 1024 rfl rfl k
  have el : mmDims.lhsIdx (ix2 p q) ((contrEquiv1 mmDims 1024 rfl rfl).symm k) = ix2 p k :=
    funext fun a => Fin.ext (by
      match a with
      | ⟨0, _⟩ => exact mm_lhs_0 _ _
      | ⟨1, _⟩ => exact (mm_lhs_1 _ _).trans hk)
  have er : mmDims.rhsIdx (ix2 p q) ((contrEquiv1 mmDims 1024 rfl rfl).symm k) = ix2 k q :=
    funext fun a => Fin.ext (by
      match a with
      | ⟨0, _⟩ => exact (mm_rhs_0 _ _).trans hk
      | ⟨1, _⟩ => exact mm_rhs_1 _ _)
  rw [el, er]

/-- One step of the accumulation at entry (p, q): the accumulator there plus ∑ l, x[p, l] · w[l, q]. -/
theorem pay2_apply (x w : FVec Ideal S1024x1024 .bf16) (a : FVec Ideal S1024x1024 .f32) (p q : Fin 1024) :
    Gen.k1_pay2 x w a (ix2 p q) = a (ix2 p q) + ∑ l : Fin 1024, x (ix2 p l) * w (ix2 l q) := by
  unfold Gen.k1_pay2
  simp only [shapeCast_self]
  exact congrArg (a (ix2 p q) + ·) (matmul_zero_apply x w p q)

/-- The output block at entry (p, q): the accumulator there plus the bias of column q. -/
theorem pay3_apply (a : FVec Ideal S1024x1024 .f32) (b : FVec Ideal S1x1024 .f32) (p q : Fin 1024) :
    Gen.k1_pay3 a b (ix2 p q) = a (ix2 p q) + b (ix2 0 q) := by
  unfold Gen.k1_pay3
  simp only [shapeCast_self]
  exact congrArg (a (ix2 p q) + ·) (broadcastTo_1b_ab_apply b broadcasts_S1x1024_S1024x1024 p q)

end Cert.KernelIdeal.Hand

end
-- ==== Proof.SumBlocks.lean ====
/-
  A sum over 4096 consecutive indices is the sum of its four consecutive blocks of 1024 indices,
  accumulated from zero in order.  Pure algebra in any commutative additive monoid.
-/
import Mathlib.Algebra.BigOperators.Fin

namespace Cert.Algebra

/-- A sum over `a + b` consecutive indices is the sum over the first `a` plus the sum over the last `b`. -/
private theorem sum_split {M : Type*} [AddCommMonoid M] (a b : ℕ) (g : Fin (a + b) → M) :
    ∑ k : Fin (a + b), g k =
      (∑ l : Fin a, g ⟨l.val, by have := l.isLt; omega⟩) +
        ∑ l : Fin b, g ⟨a + l.val, by have := l.isLt; omega⟩ := by
  rw [Fin.sum_univ_add]
  rfl

/-- The sum over all 4096 indices, cut into the four blocks `[0, 1024)`, `[1024, 2048)`, `[2048, 3072)`,
    `[3072, 4096)` and accumulated from zero in that order. -/
theorem sum_four_blocks {M : Type*} [AddCommMonoid M] (f : Fin 4096 → M) :
    ∑ k : Fin 4096, f k =
      (((0 + ∑ l : Fin 1024, f ⟨l.val, by have := l.isLt; omega⟩) +
          ∑ l : Fin 1024, f ⟨1024 + l.val, by have := l.isLt; omega⟩) +
          ∑ l : Fin 1024, f ⟨2048 + l.val, by have := l.isLt; omega⟩) +
        ∑ l : Fin 1024, f ⟨3072 + l.val, by have := l.isLt; omega⟩ := by
  have h1 := sum_split 3072 1024 f
  have h2 := sum_split 2048 1024 (fun l : Fin 3072 => f ⟨l.val, by have := l.isLt; omega⟩)
  have h3 := sum_split 1024 1024 (fun l : Fin 2048 => f ⟨l.val, by have := l.isLt; omega⟩)
  rw [zero_add]
  refine h1.trans ?_
  refine congrArg (· + _) ?_
  refine h2.trans ?_
  refine congrArg (· + _) ?_
  exact h3

end Cert.Algebra
-- ==== Proof.MatmulBlocks.lean ====
/-
  The matrix-product call, block by block.

  The call walks a grid of 8 × 4 × 4 points; point t = (i·4 + j)·4 + k is handed block (i, k) of the activations
  (8192 × 4096, as rows), block (k, j) of the dequantised weight (4096 × 4096) and block (0, j) of the bias row, all
  blocks 1024 wide, and owns block (i, j) of the output. Entry (p, l) of a block with block index (a, b) is entry
  (a·1024 + p, b·1024 + l) of its array. Along k the body accumulates: cleared at k = 0, then at every k it adds
  ∑ l, x[i·1024 + p, k·1024 + l] · w[k·1024 + l, j·1024 + q]. After k = 3 the four quarters of the contraction axis
  have all been added, and the sum over 4096 positions is the sum of its four quarters taken in order.
-/
import proofs.«162470_j34677565948161_2_alg».proof.Proof.Blocks
import proofs.«162470_j34677565948161_2_alg».proof.Proof.MatmulPayload
import proofs.«162470_j34677565948161_2_alg».proof.Proof.SumBlocks
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The printed index maps of the matrix-product call, decided once over its 128 points: at point t = (i·4 + j)·4 + k
    the left operand's block is (i, k), the right operand's (k, j), the bias's (0, j), the output's (i, j). -/
theorem idx_facts1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- Row i·1024 + p of the 8192 rows. -/
abbrev rowIx (i : ℕ) (hi : i < 8) (p : Fin 1024) : Fin 8192 := ⟨i * 1024 + p.val, by have := p.isLt; omega⟩
/-- Position k·1024 + l of the 4096 positions of an axis cut in four blocks. -/
abbrev colIx (k : ℕ) (hk : k < 4) (l : Fin 1024) : Fin 4096 := ⟨k * 1024 + l.val, by have := l.isLt; omega⟩

section Blocks

variable {F : FTy → Type} [FloatOps F]
variable (V : (c : Dev nD) → (b : Ref sig .tc) → Buf (Elt F) ((c : Thread nD τ).loc b))

/-- The left operand's block at a point whose block index is (i, k), entry (p, l): the array at (i·1024 + p, k·1024 + l). -/
theorem blk0_read (c : Dev nD) (t : Fin cfg1.N) (i k : ℕ) (hi : i < 8) (hk : k < 4)
    (ei : win1_0.index t (0 : Fin 2) = i) (ek : win1_0.index t (1 : Fin 2) = k) (p l : Fin 1024) :
    iblk1 V c 0 t (ix2 p l) = V c main_v2 (ix2 (rowIx i hi p) (colIx k hk l)) := by
  show V c main_v2 (((cfg1.win 0).blk t).view.emb (ix2 p l)) = _
  refine congrArg (V c main_v2) (funext fun a => Fin.ext ?_)
  match a with
  | ⟨0, _⟩ => show win1_0.index t (0 : Fin 2) * 1024 + 1 * p.val = i * 1024 + p.val; rw [ei]; omega
  | ⟨1, _⟩ => show win1_0.index t (1 : Fin 2) * 1024 + 1 * l.val = k * 1024 + l.val; rw [ek]; omega

/-- The right operand's block at a point whose block index is (k, j), entry (l, q): the array at (k·1024 + l, j·1024 + q). -/
theorem blk1_read (c : Dev nD) (t : Fin cfg1.N) (k j : ℕ) (hk : k < 4) (hj : j < 4)
    (ek : win1_1.index t (0 : Fin 2) = k) (ej : win1_1.index t (1 : Fin 2) = j) (l q : Fin 1024) :
    iblk1 V c 1 t (ix2 l q) = V c main_v0 (ix2 (colIx k hk l) (colIx j hj q)) := by
  show V c main_v0 (((cfg1.win 1).blk t).view.emb (ix2 l q)) = _
  refine congrArg (V c main_v0) (funext fun a => Fin.ext ?_)
  match a with
  | ⟨0, _⟩ => show win1_1.index t (0 : Fin 2) * 1024 + 1 * l.val = k * 1024 + l.val; rw [ek]; omega
  | ⟨1, _⟩ => show win1_1.index t (1 : Fin 2) * 1024 + 1 * q.val = j * 1024 + q.val; rw [ej]; omega

/-- The bias's block at a point whose block index is (0, j), entry (0, q): the row at j·1024 + q. -/
theorem blk2_read (c : Dev nD) (t : Fin cfg1.N) (j : ℕ) (hj : j < 4)
    (e0 : win1_2.index t (0 : Fin 2) = 0) (ej : win1_2.index t (1 : Fin 2) = j) (q : Fin 1024) :
    iblk1 V c 2 t (ix2 (0 : Fin 1) q) = V c main_v3 (ix2 (0 : Fin 1) (colIx j hj q)) := by
  show V c main_v3 (((cfg1.win 2).blk t).view.emb (ix2 (0 : Fin 1) q)) = _
  refine congrArg (V c main_v3) (funext fun a => Fin.ext ?_)
  match a with
  | ⟨0, _⟩ => show win1_2.index t (0 : Fin 2) * 1 + 1 * 0 = 0; rw [e0]
  | ⟨1, _⟩ => show win1_2.index t (1 : Fin 2) * 1024 + 1 * q.val = j * 1024 + q.val; rw [ej]; omega

/-- The output's block at a point whose block index is (i, j): entry (p, q) sits in the array at (i·1024 + p, j·1024 + q). -/
theorem blk3_emb (t : Fin cfg1.N) (i j : ℕ) (hi : i < 8) (hj : j < 4)
    (ei : win1_3.index t (0 : Fin 2) = i) (ej : win1_3.index t (1 : Fin 2) = j) (p q : Fin 1024) :
    ((cfg1.win 3).blk t).view.emb (ix2 p q) = ix2 (rowIx i hi p) (colIx j hj q) := by
  refine funext fun a => Fin.ext ?_
  match a with
  | ⟨0, _⟩ => show win1_3.index t (0 : Fin 2) * 1024 + 1 * p.val = i * 1024 + p.val; rw [ei]; omega
  | ⟨1, _⟩ => show win1_3.index t (1 : Fin 2) * 1024 + 1 * q.val = j * 1024 + q.val; rw [ej]; omega

end Blocks

section Value

variable (V : (c : Dev nD) → (b : Ref sig .tc) → Buf (Elt Ideal) ((c : Thread nD τ).loc b))

/-- The activations as rows, the dequantised weight, and the bias row, as the matrix-product call finds them. -/
abbrev mmLhs (c : Dev nD) : S8192x4096.Idx → EReal := V c main_v2
abbrev mmRhs (c : Dev nD) : S4096x4096.Idx → EReal := V c main_v0
abbrev mmBias (c : Dev nD) : S1x4096.Idx → EReal := V c main_v3

/-- One block's share of entry (i·1024 + p, j·1024 + q) of the product: the sum over the k-th quarter of the contraction axis. -/
abbrev blockSum (c : Dev nD) (i j k : ℕ) (hi : i < 8) (hj : j < 4) (hk : k < 4) (p q : Fin 1024) : EReal :=
  ∑ l : Fin 1024, mmLhs V c (ix2 (rowIx i hi p) (colIx k hk l)) * mmRhs V c (ix2 (colIx k hk l) (colIx j hj q))

/-- One step of the accumulation at a point with coordinates (i, j, k): the accumulator's entry grows by block k's share. -/
theorem acc_step (c : Dev nD) (a : Vec Ideal S1024x1024 .f32) (t : Fin cfg1.N) (i j k : ℕ) (hi : i < 8) (hj : j < 4) (hk : k < 4)
    (ei : t.val / 16 = i) (ej : t.val / 4 % 4 = j) (ek : t.val % 4 = k) (p q : Fin 1024) :
    Gen.k1_pay2 (iblk1 V c 0 t) (iblk1 V c 1 t) a (ix2 p q) = a (ix2 p q) + blockSum V c i j k hi hj hk p q := by
  obtain ⟨e0, e1, e2, e3, -⟩ := idx_facts1 t
  refine (pay2_apply (iblk1 V c 0 t) (iblk1 V c 1 t) a p q).trans ?_
  refine congrArg (a (ix2 p q) + ·) (Finset.sum_congr rfl fun l _ => ?_)
  exact congrArg₂ (· * ·) (blk0_read V c t i k hi hk (e0.trans ei) (e1.trans ek) p l)
    (blk1_read V c t k j hk hj (e2.trans ek) (e3.trans ej) l q)

/-- Two spellings of one point name one accumulator. -/
theorem acc_congr (acc : (n : ℕ) → n < cfg1.N → Vec Ideal S1024x1024 .f32) {a b : ℕ} (ha : a < cfg1.N) (hb : b < cfg1.N)
    (e : a = b) : acc a ha = acc b hb := by subst e; rfl

/-- The accumulator after the last of the four steps of a run: cleared at the first step (k = 0) and grown by one block's
    share at each of the four, it holds the whole sum over the contraction axis. -/
theorem acc_last (c : Dev nD) (acc : (n : ℕ) → n < cfg1.N → Vec Ideal S1024x1024 .f32)
    (hfirst : ∀ t : Fin cfg1.N, t.val % 4 = 0 →
      acc t.val t.isLt = Gen.k1_pay2 (iblk1 V c 0 t) (iblk1 V c 1 t) (Gen.k1_pay1 (F := Ideal)))
    (hnext : ∀ t : Fin cfg1.N, ¬ t.val % 4 = 0 →
      acc t.val t.isLt = Gen.k1_pay2 (iblk1 V c 0 t) (iblk1 V c 1 t)
        (acc (t.val - 1) (Nat.lt_of_le_of_lt (Nat.sub_le _ _) t.isLt)))
    (t : Fin cfg1.N) (h3 : t.val % 4 = 3) (i j : ℕ) (hi : i < 8) (hj : j < 4)
    (ei : t.val / 16 = i) (ej : t.val / 4 % 4 = j) (p q : Fin 1024) :
    acc t.val t.isLt (ix2 p q)
      = ∑ kk : Fin 4096, mmLhs V c (ix2 (rowIx i hi p) kk) * mmRhs V c (ix2 kk (colIx j hj q)) := by
  have hN : cfg1.N = 128 := N_1
  have hlt := t.isLt
  have h2 : t.val - 1 < cfg1.N := by omega
  have h1 : t.val - 1 - 1 < cfg1.N := by omega
  have h0 : t.val - 1 - 1 - 1 < cfg1.N := by omega
  have s3 : acc t.val t.isLt (ix2 p q) = acc (t.val - 1) h2 (ix2 p q) + blockSum V c i j 3 hi hj (by omega) p q :=
    (congrFun (hnext t (by omega)) (ix2 p q)).trans
      (acc_step V c (acc (t.val - 1) h2) t i j 3 hi hj (by omega) ei ej h3 p q)
  have s2 : acc (t.val - 1) h2 (ix2 p q) = acc (t.val - 1 - 1) h1 (ix2 p q) + blockSum V c i j 2 hi hj (by omega) p q :=
    (congrFun (hnext ⟨t.val - 1, h2⟩ (by show ¬ (t.val - 1) % 4 = 0; omega)) (ix2 p q)).trans
      (acc_step V c (acc (t.val - 1 - 1) h1) ⟨t.val - 1, h2⟩ i j 2 hi hj (by omega)
        (by show (t.val - 1) / 16 = i; omega) (by show (t.val - 1) / 4 % 4 = j; omega) (by show (t.val - 1) % 4 = 2; omega) p q)
  have s1 : acc (t.val - 1 - 1) h1 (ix2 p q) = acc (t.val - 1 - 1 - 1) h0 (ix2 p q) + blockSum V c i j 1 hi hj (by omega) p q :=
    (congrFun (hnext ⟨t.val - 1 - 1, h1⟩ (by show ¬ (t.val - 1 - 1) % 4 = 0; omega)) (ix2 p q)).trans
      (acc_step V c (acc (t.val - 1 - 1 - 1) h0) ⟨t.val - 1 - 1, h1⟩ i j 1 hi hj (by omega)
        (by show (t.val - 1 - 1) / 16 = i; omega) (by show (t.val - 1 - 1) / 4 % 4 = j; omega)
        (by show (t.val - 1 - 1) % 4 = 1; omega) p q)
  have s0 : acc (t.val - 1 - 1 - 1) h0 (ix2 p q) = 0 + blockSum V c i j 0 hi hj (by omega) p q :=
    (congrFun (hfirst ⟨t.val - 1 - 1 - 1, h0⟩ (by show (t.val - 1 - 1 - 1) % 4 = 0; omega)) (ix2 p q)).trans
      ((acc_step V c (Gen.k1_pay1 (F := Ideal)) ⟨t.val - 1 - 1 - 1, h0⟩ i j 0 hi hj (by omega)
        (by show (t.val - 1 - 1 - 1) / 16 = i; omega) (by show (t.val - 1 - 1 - 1) / 4 % 4 = j; omega)
        (by show (t.val - 1 - 1 - 1) % 4 = 0; omega) p q).trans
        (congrArg (· + blockSum V c i j 0 hi hj (by omega) p q) (pay1_apply p q)))
  rw [s3, s2, s1, s0]
  refine Eq.trans ?_ (Cert.Algebra.sum_four_blocks
    (fun kk : Fin 4096 => mmLhs V c (ix2 (rowIx i hi p) kk) * mmRhs V c (ix2 kk (colIx j hj q)))).symm
  have e0 : ∀ l : Fin 1024, colIx 0 (by omega) l = (⟨l.val, by have := l.isLt; omega⟩ : Fin 4096) :=
    fun l => Fin.ext (by show 0 * 1024 + l.val = l.val; omega)
  have e1 : ∀ l : Fin 1024, colIx 1 (by omega) l = (⟨1024 + l.val, by have := l.isLt; omega⟩ : Fin 4096) :=
    fun l => Fin.ext (by show 1 * 1024 + l.val = 1024 + l.val; omega)
  have e2 : ∀ l : Fin 1024, colIx 2 (by omega) l = (⟨2048 + l.val, by have := l.isLt; omega⟩ : Fin 4096) :=
    fun l => Fin.ext (by show 2 * 1024 + l.val = 2048 + l.val; omega)
  have e3 : ∀ l : Fin 1024, colIx 3 (by omega) l = (⟨3072 + l.val, by have := l.isLt; omega⟩ : Fin 4096) :=
    fun l => Fin.ext (by show 3 * 1024 + l.val = 3072 + l.val; omega)
  refine congrArg₂ (· + ·) (congrArg₂ (· + ·) (congrArg₂ (· + ·) (congrArg (0 + ·) ?_) ?_) ?_) ?_
  · exact Finset.sum_congr rfl fun l _ => by rw [e0 l]
  · exact Finset.sum_congr rfl fun l _ => by rw [e1 l]
  · exact Finset.sum_congr rfl fun l _ => by rw [e2 l]
  · exact Finset.sum_congr rfl fun l _ => by rw [e3 l]

end Value

end Cert.KernelIdeal.Hand

end
-- ==== Proof.MatmulArray.lean ====
/-
  The output array of the matrix-product call after its run.

  Only the last step of a run along the contraction axis (k = 3) writes its output block back, and what it writes is
  the accumulator plus the bias row: entry (p, q) of block (i, j) is
  (∑ kk, x[i·1024 + p, kk] · w[kk, j·1024 + q]) + b[0, j·1024 + q]. These 32 blocks tile the 8192 × 4096 array
  (entry (r, n) lies in block (r / 1024, n / 1024)), and each is the restriction of one function of the whole array's
  index, so the array ends holding that function: the product plus the bias, entry by entry.
-/
import proofs.«162470_j34677565948161_2_alg».proof.Proof.MatmulBlocks

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

section Value

variable (V : (c : Dev nD) → (b : Ref sig .tc) → Buf (Elt Ideal) ((c : Thread nD τ).loc b))

/-- What the matrix-product call leaves in its output array: entry (r, n) is the whole product's entry plus the bias of
    column n. -/
def prodArr (c : Dev nD) : S8192x4096.Idx → EReal := fun idx =>
  (∑ kk : Fin 4096, mmLhs V c (ix2 (⟨(idx 0).val, (idx 0).isLt⟩ : Fin 8192) kk)
      * mmRhs V c (ix2 kk (⟨(idx 1).val, (idx 1).isLt⟩ : Fin 4096)))
    + mmBias V c (ix2 (0 : Fin 1) (⟨(idx 1).val, (idx 1).isLt⟩ : Fin 4096))

/-- Every entry of the output array lies in the block of a point that writes its block back: entry (r, n) in the block of
    the last step (k = 3) of the run with i = r / 1024 and j = n / 1024. -/
theorem cover3 (idx : S8192x4096.Idx) :
    ∃ t : Fin cfg1.N, (cfg1.win 3).flush t = true ∧ idx ∈ ((cfg1.win 3).blk t).view.set := by
  have hN : cfg1.N = 128 := N_1
  have h0 : (idx 0).val < 8192 := (idx 0).isLt
  have h1 : (idx 1).val < 4096 := (idx 1).isLt
  obtain ⟨t, ht⟩ : ∃ t : Fin cfg1.N, t.val = ((idx 0).val / 1024 * 4 + (idx 1).val / 1024) * 4 + 3 :=
    ⟨⟨((idx 0).val / 1024 * 4 + (idx 1).val / 1024) * 4 + 3, by omega⟩, rfl⟩
  obtain ⟨-, -, -, -, -, -, e6, e7⟩ := idx_facts1 t
  refine ⟨t, (flush1_3 t).mpr (by omega), ?_⟩
  show idx ∈ ((View.whole main_v4).slice (win1_3.rect t)).set
  rw [View.set_slice_whole, Rect.mem_set_unit]
  intro a
  match a with
  | ⟨0, _⟩ =>
    show win1_3.index t (0 : Fin 2) * 1024 ≤ (idx 0).val ∧ (idx 0).val < win1_3.index t (0 : Fin 2) * 1024 + 1024
    rw [e6]; omega
  | ⟨1, _⟩ =>
    show win1_3.index t (1 : Fin 2) * 1024 ≤ (idx 1).val ∧ (idx 1).val < win1_3.index t (1 : Fin 2) * 1024 + 1024
    rw [e7]; omega

/-- The output array of the matrix-product call after its run, entry by entry: for any bookkeeping of the call whose
    accumulator is cleared at the first step of a run and grown at each step, and whose output block at the last step is
    the accumulator plus the bias row. -/
theorem array_of_acc (c : Dev nD) (dat : Dat τ (Elt Ideal) Unit ℕ (UR sig nD τ) ℕ cfg1 c)
    (acc : (n : ℕ) → n < cfg1.N → Vec Ideal S1024x1024 .f32)
    (hfirst : ∀ t : Fin cfg1.N, t.val % 4 = 0 →
      acc t.val t.isLt = Gen.k1_pay2 (iblk1 V c 0 t) (iblk1 V c 1 t) (Gen.k1_pay1 (F := Ideal)))
    (hnext : ∀ t : Fin cfg1.N, ¬ t.val % 4 = 0 →
      acc t.val t.isLt = Gen.k1_pay2 (iblk1 V c 0 t) (iblk1 V c 1 t)
        (acc (t.val - 1) (Nat.lt_of_le_of_lt (Nat.sub_le _ _) t.isLt)))
    (hafter : ∀ t : Fin cfg1.N, t.val % 4 = 3 →
      dat.after 3 t = Gen.k1_pay3 (acc t.val t.isLt) (iblk1 V c 2 t))
    (r : Fin 8192) (n : Fin 4096) :
    dat.arrAt 3 cfg1.N (ix2 r n)
      = (∑ kk : Fin 4096, mmLhs V c (ix2 r kk) * mmRhs V c (ix2 kk n)) + mmBias V c (ix2 (0 : Fin 1) n) := by
  have hG : ∀ t, (cfg1.win 3).flush t = true →
      dat.flushed 3 t = ((cfg1.win 3).blk t).view.read (Elt Ideal) (prodArr V c) := by
    intro t hf
    have h3 : t.val % 4 = 3 := (flush1_3 t).mp hf
    have hN : cfg1.N = 128 := N_1
    have hlt : t.val < cfg1.N := t.isLt
    obtain ⟨-, -, -, -, e4, e5, e6, e7⟩ := idx_facts1 t
    show (cfg1.win 3).cut (grid1.coords t) (dat.after 3 t) = _
    rw [hafter t h3]
    funext y
    obtain ⟨p, q, rfl⟩ : ∃ (p q : Fin 1024), y = ix2 p q := ⟨y 0, y 1, eq_ix2 y⟩
    show Gen.k1_pay3 (acc t.val t.isLt) (iblk1 V c 2 t) (ix2 p q)
      = prodArr V c (((cfg1.win 3).blk t).view.emb (ix2 p q))
    rw [blk3_emb t (t.val / 16) (t.val / 4 % 4) (by omega) (by omega) e6 e7 p q]
    refine (pay3_apply (acc t.val t.isLt) (iblk1 V c 2 t) p q).trans ?_
    exact congrArg₂ (· + ·)
      (acc_last V c acc hfirst hnext t h3 (t.val / 16) (t.val / 4 % 4) (by omega) (by omega) rfl rfl p q)
      (blk2_read V c t (t.val / 4 % 4) (by omega) e4 e5 q)
  exact congrFun (dat.arrAt_eq_of_cover 3 (prodArr V c) hG (cover3)) (ix2 r n)

end Value

end Cert.KernelIdeal.Hand

end
-- ==== Proof.MatmulValue.lean ====
/-
  The matrix-product call's output array, for the bookkeeping the call's frame proof uses.

  The accumulator of that bookkeeping restarts from zero at the first step of every run of four points and continues
  from the point before otherwise, and the output block stored at the last step is the accumulator plus the bias row:
  exactly what the entry-by-entry reading of the array asks. So after the run the array holds, at (r, n),
  (∑ kk, x[r, kk] · w[kk, n]) + b[0, n], where x is the activations as 8192 rows, w the dequantised weight and b the
  bias row, as the call finds them.
-/
import proofs.«162470_j34677565948161_2_alg».proof.Proof.MatmulBody
import proofs.«162470_j34677565948161_2_alg».proof.Proof.MatmulArray

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The output array of the matrix-product call after its run: entry (r, n) is the product of row r of the activations
    with column n of the dequantised weight, plus the bias of column n. -/
theorem matmul_array (V : (c : Dev nD) → (b : Ref sig .tc) → Buf (Elt Ideal) ((c : Thread nD τ).loc b)) (c : Dev nD)
    (r : Fin 8192) (n : Fin 4096) :
    (dat1 (F := Ideal) V c).arrAt 3 cfg1.N (ix2 r n)
      = (∑ kk : Fin 4096, mmLhs V c (ix2 r kk) * mmRhs V c (ix2 kk n)) + mmBias V c (ix2 (0 : Fin 1) n) :=
  array_of_acc V c (dat1 V c) (accAt1 V c) (accAt1_first V c) (accAt1_next V c) (after1_3 V c) r n

end Cert.KernelIdeal.Hand

end
-- ==== Proof.FinalValue.lean ====
/-
  The result array of the whole program, on the extended reals, is the specification `Cert.Spec.G` of the
  program's four arguments.

  The last host line views the 8192 × 4096 matrix the matrix-product call leaves as a 4 × 2048 × 4096 array: entry
  `(b, s, n)` is the matrix's entry `(b · 2048 + s, n)`.  That entry is the contraction of row `b · 2048 + s` of
  the activations' matrix with column `n` of the dequantised weight, plus the bias.  The activations' matrix is the
  argument `x` viewed as 8192 rows (a change of format is the identity on the extended reals), so its row
  `b · 2048 + s` is `x[b, s, ·]`; the dequantised weight is what the dequantisation call left, untouched by the host
  lines in between; the bias row is the argument `bias` with a unit axis in front.
-/
import proofs.«162470_j34677565948161_2_alg».proof.Proof.Boundaries
import proofs.«162470_j34677565948161_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

/-! ## What the host lines and the launches leave, whole arrays -/

section Whole

variable {F : FTy → Type} [FloatOps F]
variable (m : (ℓ : Loc nD τ sig) → Buf (Elt F) ℓ) (ρ : Dev nD → PrngReg)

/-- The result is the matrix-product call's output, viewed as a 4 × 2048 × 4096 array. -/
theorem W4_v5 (c : Dev nD) :
    W4 m ρ c (Proc.devRef .tc main_v5)
      = shapeCast S4x2048x4096 (W3 m ρ c (Proc.devRef .tc main_v4)) shapeCasts_S8192x4096_S4x2048x4096 := by
  show StableHlo.after hostOps2 _ (Proc.devRef .tc main_v5) = _
  after_results
  all_goals rfl

/-- The matrix-product call's output array is what its write-backs leave. -/
theorem W3_v4 (c : Dev nD) :
    W3 m ρ c (Proc.devRef .tc main_v4) = (dat1 (Vin1 m ρ) c).arrAt 3 cfg1.N :=
  W3_arr m ρ c 3

/-- The activations' matrix: the argument viewed as 8192 rows, in the narrower format. -/
theorem Vin1_v2 (c : Dev nD) :
    Vin1 m ρ c main_v2
      = truncf .bf16 (shapeCast S8192x4096 (m ((c : Thread nD τ).loc main_arg0)) shapeCasts_S4x2048x4096_S8192x4096)
          bitsLt_bf16_f32 := by
  show StableHlo.after hostOps1 (W1 m ρ c) (Proc.devRef .tc main_v2) = _
  after_results
  rw [W1_of_ne m ρ c main_arg0 (by decide)]
  all_goals rfl

/-- The bias row: the argument with a unit axis in front. -/
theorem Vin1_v3 (c : Dev nD) :
    Vin1 m ρ c main_v3 = shapeCast S1x4096 (m ((c : Thread nD τ).loc main_arg2)) shapeCasts_S4096_S1x4096 := by
  show StableHlo.after hostOps1 (W1 m ρ c) (Proc.devRef .tc main_v3) = _
  after_results
  rw [W1_of_ne m ρ c main_arg2 (by decide)]
  all_goals rfl

/-- The dequantised weight is what the dequantisation call left: no host line in between writes it. -/
theorem Vin1_v0 (c : Dev nD) :
    Vin1 m ρ c main_v0 = (dat0 (Vin0 m ρ) c).arrAt 2 cfg0.N :=
  (hostOps1_not_written main_v0 (by decide) _).trans (W1_arr m ρ c 2)

end Whole

/-! ## Read at an index, on the extended reals -/

section AtIdeal

/-- The activations' matrix a launch-time valuation holds, as a function of the index into the extended reals. -/
abbrev actMat (V : (c : Dev nD) → (b : Ref sig .tc) → Buf (Elt Ideal) ((c : Thread nD τ).loc b)) (c : Dev nD) :
    S8192x4096.Idx → EReal := V c main_v2
/-- The dequantised weight it holds. -/
abbrev wdqMat (V : (c : Dev nD) → (b : Ref sig .tc) → Buf (Elt Ideal) ((c : Thread nD τ).loc b)) (c : Dev nD) :
    S4096x4096.Idx → EReal := V c main_v0
/-- The bias row it holds. -/
abbrev biasRow (V : (c : Dev nD) → (b : Ref sig .tc) → Buf (Elt Ideal) ((c : Thread nD τ).loc b)) (c : Dev nD) :
    S1x4096.Idx → EReal := V c main_v3

/-- The specification at the index `(b, s, n)`. -/
theorem G_apply (x : (⟨3, ![4, 2048, 4096]⟩ : Shape).Idx → EReal) (w : (⟨2, ![4096, 4096]⟩ : Shape).Idx → EReal)
    (bias : (⟨1, ![4096]⟩ : Shape).Idx → EReal) (sc : (⟨2, ![32, 4096]⟩ : Shape).Idx → EReal)
    (b : Fin 4) (s : Fin 2048) (n : Fin 4096) :
    Cert.Spec.G x w bias sc (ix3 b s n)
      = (∑ k : Fin 4096, x (ix3 b s k) * Cert.Spec.wdq w sc k n) + bias (ix1 n) := rfl

variable (m : (ℓ : Loc nD τ sig) → Buf (Elt Ideal) ℓ) (ρ : Dev nD → PrngReg)

/-- The row of the activations' matrix that holds `x[b, s, ·]`. -/
def row (b : Fin 4) (s : Fin 2048) : Fin 8192 := ⟨b.val * 2048 + s.val, by have := b.isLt; have := s.isLt; omega⟩

/-- Row `b · 2048 + s` of the activations' matrix is `x[b, s, ·]`. -/
theorem Vin1_v2_apply (c : Dev nD) (b : Fin 4) (s : Fin 2048) (kk : Fin 4096) :
    actMat (Vin1 m ρ) c (ix2 (row b s) kk) = m ((c : Thread nD τ).loc main_arg0) (ix3 b s kk) := by
  refine (congrFun (Vin1_v2 m ρ c) (ix2 (row b s) kk)).trans ?_
  refine (truncf_apply _ bitsLt_bf16_f32 (ix2 (row b s) kk)).trans ?_
  refine shapeCast_apply _ _ (ix2 (row b s) kk) (ix3 b s kk) ?_
  rw [Shape.rowMajor_val_two, Shape.rowMajor_val_three]
  rfl

/-- The bias row at column `n` is `bias[n]`. -/
theorem Vin1_v3_apply (c : Dev nD) (n : Fin 4096) :
    biasRow (Vin1 m ρ) c (ix2 (0 : Fin 1) n) = m ((c : Thread nD τ).loc main_arg2) (ix1 n) := by
  refine (congrFun (Vin1_v3 m ρ c) (ix2 (0 : Fin 1) n)).trans ?_
  refine shapeCast_apply _ _ (ix2 (0 : Fin 1) n) (ix1 n) ?_
  rw [Shape.rowMajor_val_two, Shape.rowMajor_val_one]
  show n.val = 0 * 4096 + n.val
  omega

/-- The whole result, given the two launches' output arrays read at an index. -/
theorem final_value_of
    (dequant_array : ∀ (V : (c : Dev nD) → (b : Ref sig .tc) → Buf (Elt Ideal) ((c : Thread nD τ).loc b)) (c : Dev nD)
        (k n : Fin 4096),
        (dat0 (F := Ideal) V c).arrAt 2 cfg0.N (ValueIdx.ix2 k n) = Cert.Spec.wdq (V c main_arg1) (V c main_arg3) k n)
    (matmul_array : ∀ (V : (c : Dev nD) → (b : Ref sig .tc) → Buf (Elt Ideal) ((c : Thread nD τ).loc b)) (c : Dev nD)
        (r : Fin 8192) (n : Fin 4096),
        (dat1 (F := Ideal) V c).arrAt 3 cfg1.N (ValueIdx.ix2 r n)
          = (∑ kk : Fin 4096, actMat V c (ValueIdx.ix2 r kk) * wdqMat V c (ValueIdx.ix2 kk n))
              + biasRow V c (ValueIdx.ix2 0 n))
    (c : Dev nD) :
    W4 (F := Ideal) m ρ c (Proc.devRef .tc main_v5)
      = Cert.Spec.G (m ((c.tc : Thread nD τ).loc main_arg0)) (m ((c.tc : Thread nD τ).loc main_arg1))
          (m ((c.tc : Thread nD τ).loc main_arg2)) (m ((c.tc : Thread nD τ).loc main_arg3)) := by
  refine funext fun (i : S4x2048x4096.Idx) => ?_
  obtain ⟨b, s, n, rfl⟩ : ∃ (b : Fin 4) (s : Fin 2048) (n : Fin 4096), i = ix3 b s n :=
    ⟨i 0, i 1, i 2, eq_ix3 i⟩
  refine (congrFun (W4_v5 m ρ c) (ix3 b s n)).trans ?_
  refine (shapeCast_apply _ _ (ix3 b s n) (ix2 (row b s) n) ?_).trans ?_
  · rw [Shape.rowMajor_val_two, Shape.rowMajor_val_three]
    rfl
  refine (congrFun (W3_v4 m ρ c) (ix2 (row b s) n)).trans ?_
  refine (matmul_array (Vin1 m ρ) c (row b s) n).trans ?_
  refine Eq.trans ?_ (G_apply _ _ _ _ b s n).symm
  refine congrArg₂ (fun (u v : EReal) => u + v)
    (Finset.sum_congr rfl fun kk _ => congrArg₂ (fun (u v : EReal) => u * v) ?_ ?_) ?_
  · exact Vin1_v2_apply m ρ c b s kk
  · exact (congrFun (Vin1_v0 m ρ c) (ix2 kk n)).trans (dequant_array (Vin0 m ρ) c kk n)
  · exact Vin1_v3_apply m ρ c n

end AtIdeal

end Cert.KernelIdeal.Hand

end
-- ==== Proof.RefValue.lean ====
/-
  The reference program, read index by index on the extended reals, is the specification `Cert.Spec.G`.

  The reference transposes the weight, views the transposed matrix as 32 groups of 128 rows, divides every group by
  its step (the stored scale plus the shared epsilon, broadcast along the 128 rows), rounds to the nearest integer
  (ties to even), multiplies by the step again, views the result as a 4096 × 4096 matrix again, contracts every row
  of `x` with it and adds the bias of the output channel.  Read at one index each layout operation is a change of
  index; the only arithmetic in them is that of the row-major views:
  row `k` and column `n` of the matrix sit at flat position `k · 4096 + n`, hence in group `k / 128`,
  row `k % 128` of the group, column `n`.
-/
import proofs.«162470_j34677565948161_2_alg».proof.Proof.Gen.ReferenceIdeal.Read
import proofs.«162470_j34677565948161_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Entry `(k, n)` of the dequantised matrix is read from entry `(n, k)` of the weight: through the view as
    32 × 128 × 4096 and back the flat position `k · 4096 + n` is unchanged, and the transposition swaps the two
    coordinates. -/
theorem idx_weight (k n : Fin 4096) : idx_main_v0 (idx_main_v1 (idx_main_v10 (ix2 k n))) = ix2 n k := by
  funext a
  apply Fin.ext
  have hk := k.isLt
  have hn := n.isLt
  match a with
  | ⟨0, _⟩ =>
    show (((k.val * 4096 + n.val) / 524288 * 128 + (k.val * 4096 + n.val) / 4096 % 128) * 4096
      + (k.val * 4096 + n.val) % 4096) % 4096 = n.val
    omega
  | ⟨1, _⟩ =>
    show (((k.val * 4096 + n.val) / 524288 * 128 + (k.val * 4096 + n.val) / 4096 % 128) * 4096
      + (k.val * 4096 + n.val) % 4096) / 4096 = k.val
    omega

/-- Entry `(k, n)` takes the scale of group `k / 128` and channel `n` (the divisor's broadcast). -/
theorem idx_scale5 (k n : Fin 4096) :
    idx_main_v2 (idx_main_v5 (idx_main_v10 (ix2 k n))) = ix2 (Cert.Spec.grp k) n := by
  funext a
  apply Fin.ext
  have hk := k.isLt
  have hn := n.isLt
  match a with
  | ⟨0, _⟩ =>
    show (k.val * 4096 + n.val) / 524288 = k.val / 128
    omega
  | ⟨1, _⟩ =>
    show (k.val * 4096 + n.val) % 4096 = n.val
    omega

/-- The same for the factor's broadcast. -/
theorem idx_scale8 (k n : Fin 4096) :
    idx_main_v2 (idx_main_v8 (idx_main_v10 (ix2 k n))) = ix2 (Cert.Spec.grp k) n := by
  funext a
  apply Fin.ext
  have hk := k.isLt
  have hn := n.isLt
  match a with
  | ⟨0, _⟩ =>
    show (k.val * 4096 + n.val) / 524288 = k.val / 128
    omega
  | ⟨1, _⟩ =>
    show (k.val * 4096 + n.val) % 4096 = n.val
    omega

/-- The matrix the reference contracts with is the dequantised, transposed weight of the specification. -/
theorem v10_eq_wdq (x1 : (⟨S4096x4096, .f32⟩ : BufTy).Contents (Elt Ideal))
    (x3 : (⟨S32x4096, .f32⟩ : BufTy).Contents (Elt Ideal)) (k n : Fin 4096) :
    val_main_v10 (F := Ideal) x1 x3 (ix2 k n) = Cert.Spec.wdq x1 x3 k n := by
  simp only [val_main_v10_apply, val_main_v9_apply, val_main_v7_apply, val_main_v6_apply, val_main_v1_apply,
    val_main_v0_apply, val_main_v5_apply, val_main_v8_apply, val_main_v4_apply, val_main_v2_apply,
    val_main_v3_apply, val_main_cst_apply, idx_weight, idx_scale5, idx_scale8,
    Ideal.mulf_def, Ideal.addf_def, Ideal.hostDivf_def, Ideal.hostUnary_roundeven_def, Ideal.ofBits_def,
    Cert.Spec.wdq, Cert.Spec.step]

/-- The reference's result is the specification: every row of `x` against the dequantised weight, plus the bias. -/
theorem ref_is_G (x0 : (⟨S4x2048x4096, .f32⟩ : BufTy).Contents (Elt Ideal))
    (x1 : (⟨S4096x4096, .f32⟩ : BufTy).Contents (Elt Ideal)) (x2 : (⟨S4096, .f32⟩ : BufTy).Contents (Elt Ideal))
    (x3 : (⟨S32x4096, .f32⟩ : BufTy).Contents (Elt Ideal)) :
    Cert.ReferenceIdeal.Read.val_main_v14 (F := Ideal) x0 x1 x2 x3 = Cert.Spec.G x0 x1 x2 x3 := by
  funext i
  obtain ⟨a, b, n, rfl⟩ : ∃ (a : Fin 4) (b : Fin 2048) (n : Fin 4096), i = ix3 a b n :=
    ⟨i 0, i 1, i 2, eq_ix3 i⟩
  have e12 : idx_main_v12 (idx_main_v13 (ix3 a b n)) = ix1 n := by
    funext d
    match d with
    | ⟨0, _⟩ => rfl
  have el : ∀ k : Fin 4096, lidx_main_v11 (ix3 a b n) k = ix3 a b k := fun k => by
    funext d
    match d with
    | ⟨0, _⟩ => rfl
    | ⟨1, _⟩ => rfl
    | ⟨2, _⟩ => rfl
  have er : ∀ k : Fin 4096, ridx_main_v11 (ix3 a b n) k = ix2 k n := fun k => by
    funext d
    match d with
    | ⟨0, _⟩ => rfl
    | ⟨1, _⟩ => rfl
  rw [val_main_v14_apply, val_main_v11_apply, val_main_v13_apply, val_main_v12_apply, e12]
  simp only [el, er, v10_eq_wdq, Ideal.addf_def]
  rfl

end Cert.ReferenceIdeal.RefValue

end
-- ==== Proof.lean ====
/-
  Both programs compute, on the extended reals, the affine map
  `out[b, s, n] = (∑ k, x[b, s, k] · wdq[k, n]) + bias[n]` with the group-dequantised weight
  `wdq[k, n] = roundeven (w[n, k] / (s[k / 128, n] + ε)) · (s[k / 128, n] + ε)` (Proof/Spec.lean).

  The kernel program does it in two launches. The first writes `wdq` block by block (transpose, regroup, divide, round,
  multiply, regroup: all pointwise after the index bookkeeping). The second multiplies 1024 × 1024 blocks and adds the
  four partial products of a row of blocks into an accumulator that it carries from one grid point to the next, adding
  the bias when the fourth has been added; since addition of extended reals is commutative and associative and zero is
  neutral, the four partial sums of 1024 terms are the one sum of 4096 terms. The change of float format on the way into
  the matrix unit is the identity on the extended reals. The reference transposes, regroups, divides, rounds, multiplies
  and contracts in one piece; division and rounding are the same functions on both sides and the epsilon is the same
  word, so no law beyond regrouping the sum is needed and the precondition is never opened.

  The frames: each launch runs at every grid point, faults nowhere and writes only its own output array; the host lines
  write only their own results; so the four arguments end as they started, at the word level and on the extended reals
  alike. The idealisation rewrote nothing, so there is nothing to preserve.
-/
import proofs.«162470_j34677565948161_2_alg».proof.Defs
import proofs.«162470_j34677565948161_2_alg».proof.Proof.Gen.Kernel
import proofs.«162470_j34677565948161_2_alg».proof.Proof.Gen.KernelIdeal
import proofs.«162470_j34677565948161_2_alg».proof.Proof.Gen.ReferenceIdeal
import proofs.«162470_j34677565948161_2_alg».proof.Proof.Gen.Pre_finite_inputs
import proofs.«162470_j34677565948161_2_alg».proof.Proof.Gen.ReferenceIdeal.Run
import proofs.«162470_j34677565948161_2_alg».proof.Proof.Gen.ReferenceIdeal.Read
import proofs.«162470_j34677565948161_2_alg».proof.Proof.Run
import proofs.«162470_j34677565948161_2_alg».proof.Proof.Word.Run
import proofs.«162470_j34677565948161_2_alg».proof.Proof.DequantValue
import proofs.«162470_j34677565948161_2_alg».proof.Proof.MatmulValue
import proofs.«162470_j34677565948161_2_alg».proof.Proof.FinalValue
import proofs.«162470_j34677565948161_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments alone. -/
theorem frame_k : Cert.frame_Kernel := fun m ρ _ => Cert.Kernel.Hand.frame (F := Bits) m ρ

/-- So does the program read on the extended reals. -/
theorem frame_ki : Cert.frame_KernelIdeal := fun m ρ _ => Cert.KernelIdeal.Hand.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- The kernel program's last buffer holds the specification's array: the second launch's output array is, entry by
    entry, the rows of the flattened activations against the first launch's output array plus the bias row; the first
    launch's output array is the dequantised weight; the reshapes only rename indices. -/
theorem final_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Hand.W4 (F := Ideal) m ρ c (Proc.devRef .tc Cert.KernelIdeal.main_v5)
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  Cert.KernelIdeal.Hand.final_value_of m ρ (fun V c k n => Cert.KernelIdeal.Hand.dequant_array V c k n)
    (fun V c r n => Cert.KernelIdeal.Hand.matmul_array V c r n) c

/-- From memories that agree on the arguments both programs end with the specification's array: the kernel program's last
    buffer is read through its two launches and the reshapes around them, the reference's through its composed term. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v5 (by decide))).trans (final_value m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.RefValue.ref_is_G,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
